-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v118)) (v1 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_v155) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S4096x64x3 : Shape := ⟨3, ![4096, 64, 3]⟩
abbrev S1100000 : Shape := ⟨1, ![1100000]⟩
abbrev S100000x128 : Shape := ⟨2, ![100000, 128]⟩
abbrev S500x128 : Shape := ⟨2, ![500, 128]⟩
abbrev S128x128 : Shape := ⟨2, ![128, 128]⟩
abbrev S_ : Shape := ⟨0, ![]⟩

class Facts : Prop where
  bcast_S_S1100000 : S_.BroadcastsInDim S1100000 (![] : Fin 0 → Fin S1100000.rank)
  reducesTo_S1100000_S_d0 : S1100000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S500x128 : S_.BroadcastsInDim S500x128 (![] : Fin 0 → Fin S500x128.rank)
  reducesTo_S500x128_S_d0_1 : S500x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg8 : FVec F S500x128 .f32) (main_arg9 : FVec F S128x128 .f32) (main_arg10 : FVec F S128x128 .f32) (main_v13 : IVec S_ 1) (main_v16 : IVec S500x128 1) : IVec S_ 1 :=
  let main_c_5 : IVec S_ 1 := constantI S_ 1 1#1
  let main_v17 : IVec S_ 1 := (fun x v => Host.reduce IntOp.andi x v reducesTo_S500x128_S_d0_1 h_S_) main_v16 main_c_5
  let main_v18 : IVec S_ 1 := andi main_v13 main_v17
  let main_v19 : FVec F S500x128 .f32 := Host.absf main_arg8
  let main_cst_6 : FVec F S_ .f32 := constant S_ .f32 0x7F800000#32
  let main_v20 : FVec F S500x128 .f32 := broadcastInDim S500x128 ![] bcast_S_S500x128 main_cst_6
  let main_v21 : IVec S500x128 1 := cmpf .olt main_v19 main_v20
  let main_c_7 : IVec S_ 1 := constantI S_ 1 1#1
  let main_v22 : IVec S_ 1 := (fun x v => Host.reduce IntOp.andi x v reducesTo_S500x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : IVec S4096x3 32) (main_arg1 : IVec S4096x64x3 32) (main_arg2 : IVec S1100000 32) (main_arg3 : IVec S1100000 32) (main_arg4 : FVec F S1100000 .f32) (main_arg5 : FVec F S100000x128 .f32) (main_arg6 : FVec F S100000x128 .f32) (main_arg7 : FVec F S500x128 .f32) (main_arg8 : FVec F S500x128 .f32) (main_arg9 : FVec F S128x128 .f32) (main_arg10 : FVec F S128x128 .f32) : IVec S_ 1 :=
  let main_v0 : FVec F S1100000 .f32 := Host.absf main_arg4
  let main_cst : FVec F S_ .f32 := constant S_ .f32 0x7F800000#32
  let main_v1 : FVec F S1100000 .f32 := broadcastInDim S1100000 ![] bcast_S_S1100000 main_cst
  let main_v2 : IVec S1100000 1 := cmpf .olt main_v0 main_v1
  let main_c : IVec S_ 1 := constantI S_ 1 1#1
  let main_v3 : IVec S_ 1 := (fun x v => Host.reduce IntOp.andi x v reducesTo_S1100000_S_d0 h_S_) main_v2 main_c
  let main_v4 : FVec F S100000x128 .f32 := Host.absf main_arg5
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg6
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S500x128 .f32 := Host.absf main_arg7
  let main_cst_4 : FVec F S_ .f32 := constant S_ .f32 0x7F800000#32
  let main_v15 : FVec F S500x128 .f32 := broadcastInDim S500x128 ![] bcast_S_S500x128 main_cst_4
  let main_v16 : IVec S500x128 1 := cmpf .olt main_v14 main_v15
  fn_part1 (F := F) main_arg8 main_arg9 main_arg10 main_v13 main_v16
-- ==== Kernel.lean ====
abbrev S4096x3 : Shape := ⟨2, ![4096, 3]⟩
abbrev S4096x64x3 : Shape := ⟨3, ![4096, 64, 3]⟩
abbrev S1100000 : Shape := ⟨1, ![1100000]⟩
abbrev S100000x128 : Shape := ⟨2, ![100000, 128]⟩
abbrev S500x128 : Shape := ⟨2, ![500, 128]⟩
abbrev S128x128 : Shape := ⟨2, ![128, 128]⟩
abbrev S5000x128 : Shape := ⟨2, ![5000, 128]⟩
abbrev S1100000x1 : Shape := ⟨2, ![1100000, 1]⟩
abbrev S_ : Shape := ⟨0, ![]⟩
abbrev S1100000x128 : Shape := ⟨2, ![1100000, 128]⟩
abbrev S4096x1 : Shape := ⟨2, ![4096, 1]⟩
abbrev S4096 : Shape := ⟨1, ![4096]⟩
abbrev S4096x128 : Shape := ⟨2, ![4096, 128]⟩
abbrev S1024x128 : Shape := ⟨2, ![1024, 128]⟩
abbrev S1024 : Shape := ⟨1, ![1024]⟩
abbrev S4096x64x1 : Shape := ⟨3, ![4096, 64, 1]⟩
abbrev S4096x64 : Shape := ⟨2, ![4096, 64]⟩
abbrev S4096x64x128 : Shape := ⟨3, ![4096, 64, 128]⟩
abbrev S64x64x128 : Shape := ⟨3, ![64, 64, 128]⟩
abbrev S64x128 : Shape := ⟨2, ![64, 128]⟩
abbrev S64x64 : Shape := ⟨2, ![64, 64]⟩
abbrev S64x1x128 : Shape := ⟨3, ![64, 1, 128]⟩

abbrev nBuf : Space → Nat
  | .hbm => 215
  | .vmem => 56
  | .smem => 0
  | _ => 0

abbrev hbmTy0_0 (i : Nat) : BufTy := match i % 128 with
  | 0 => ⟨S4096x3, .i32⟩
  | 1 => ⟨S4096x64x3, .i32⟩
  | 2 => ⟨S1100000, .i32⟩
  | 3 => ⟨S1100000, .i32⟩
  | 4 => ⟨S1100000, .f32⟩
  | 5 => ⟨S100000x128, .f32⟩
  | 6 => ⟨S100000x128, .f32⟩
  | 7 => ⟨S500x128, .f32⟩
  | 8 => ⟨S500x128, .f32⟩
  | 9 => ⟨S128x128, .f32⟩
  | 10 => ⟨S128x128, .f32⟩
  | 11 => ⟨S128x128, .f32⟩
  | 12 => ⟨S128x128, .f32⟩
  | 13 => ⟨S128x128, .f32⟩
  | 14 => ⟨S128x128, .f32⟩
  | 15 => ⟨S128x128, .f32⟩
  | 16 => ⟨S128x128, .f32⟩
  | 17 => ⟨S100000x128, .f32⟩
  | 18 => ⟨S100000x128, .f32⟩
  | 19 => ⟨S1100000x1, .f32⟩
  | 20 => ⟨S_, .i32⟩
  | 21 => ⟨S1100000, .i32⟩
  | 22 => ⟨S1100000, .i1⟩
  | 23 => ⟨S_, .i32⟩
  | 24 => ⟨S1100000, .i32⟩
  | 25 => ⟨S1100000, .i32⟩
  | 26 => ⟨S1100000, .i32⟩
  | 27 => ⟨S1100000x1, .i32⟩
  | 28 => ⟨S1100000x128, .f32⟩
  | 29 => ⟨S1100000x128, .f32⟩
  | 30 => ⟨S1100000x128, .f32⟩
  | 31 => ⟨S1100000, .f32⟩
  | 32 => ⟨S1100000x1, .f32⟩
  | 33 => ⟨S_, .i32⟩
  | 34 => ⟨S1100000, .i32⟩
  | 35 => ⟨S1100000, .i1⟩
  | 36 => ⟨S_, .i32⟩
  | 37 => ⟨S1100000, .i32⟩
  | 38 => ⟨S1100000, .i32⟩
  | 39 => ⟨S1100000, .i32⟩
  | 40 => ⟨S1100000x1, .i32⟩
  | 41 => ⟨S1100000x128, .f32⟩
  | 42 => ⟨S1100000x128, .f32⟩
  | 43 => ⟨S1100000x128, .f32⟩
  | 44 => ⟨S_, .f32⟩
  | 45 => ⟨S100000x128, .f32⟩
  | 46 => ⟨S1100000x1, .i32⟩
  | 47 => ⟨S100000x128, .f32⟩
  | 48 => ⟨S_, .f32⟩
  | 49 => ⟨S100000x128, .f32⟩
  | 50 => ⟨S1100000x1, .i32⟩
  | 51 => ⟨S100000x128, .f32⟩
  | 52 => ⟨S100000x128, .f32⟩
  | 53 => ⟨S100000x128, .f32⟩
  | 54 => ⟨S1100000x1, .f32⟩
  | 55 => ⟨S_, .i32⟩
  | 56 => ⟨S1100000, .i32⟩
  | 57 => ⟨S1100000, .i1⟩
  | 58 => ⟨S_, .i32⟩
  | 59 => ⟨S1100000, .i32⟩
  | 60 => ⟨S1100000, .i32⟩
  | 61 => ⟨S1100000, .i32⟩
  | 62 => ⟨S1100000x1, .i32⟩
  | 63 => ⟨S1100000x128, .f32⟩
  | 64 => ⟨S1100000x128, .f32⟩
  | 65 => ⟨S1100000x128, .f32⟩
  | 66 => ⟨S1100000, .f32⟩
  | 67 => ⟨S1100000x1, .f32⟩
  | 68 => ⟨S_, .i32⟩
  | 69 => ⟨S1100000, .i32⟩
  | 70 => ⟨S1100000, .i1⟩
  | 71 => ⟨S_, .i32⟩
  | 72 => ⟨S1100000, .i32⟩
  | 73 => ⟨S1100000, .i32⟩
  | 74 => ⟨S1100000, .i32⟩
  | 75 => ⟨S1100000x1, .i32⟩
  | 76 => ⟨S1100000x128, .f32⟩
  | 77 => ⟨S1100000x128, .f32⟩
  | 78 => ⟨S1100000x128, .f32⟩
  | 79 => ⟨S_, .f32⟩
  | 80 => ⟨S100000x128, .f32⟩
  | 81 => ⟨S1100000x1, .i32⟩
  | 82 => ⟨S100000x128, .f32⟩
  | 83 => ⟨S_, .f32⟩
  | 84 => ⟨S100000x128, .f32⟩
  | 85 => ⟨S1100000x1, .i32⟩
  | 86 => ⟨S100000x128, .f32⟩
  | 87 => ⟨S100000x128, .f32⟩
  | 88 => ⟨S100000x128, .f32⟩
  | 89 => ⟨S4096x1, .i32⟩
  | 90 => ⟨S4096, .i32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S4096x1, .i32⟩
  | 99 => ⟨S4096x128, .f32⟩
  | 100 => ⟨S4096x1, .i32⟩
  | 101 => ⟨S4096, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S4096x128, .f32⟩
  | 111 => ⟨S_, .f32⟩
  | 112 => ⟨S4096x128, .f32⟩
  | 113 => ⟨S4096x128, .f32⟩
  | 114 => ⟨S4096x128, .f32⟩
  | 115 => ⟨S4096x128, .f32⟩
  | 116 => ⟨S4096x128, .i1⟩
  | 117 => ⟨S4096x128, .f32⟩
  | 118 => ⟨S4096x128, .f32⟩
  | 119 => ⟨S4096x128, .f32⟩
  | 120 => ⟨S4096x128, .f32⟩
  | 121 => ⟨S4096x128, .f32⟩
  | 122 => ⟨S4096x128, .f32⟩
  | 123 => ⟨S4096x128, .f32⟩
  | 124 => ⟨S4096x128, .f32⟩
  | 125 => ⟨S4096x1, .i32⟩
  | 126 => ⟨S4096, .i32⟩
  | 127 => ⟨S_, .i32⟩
  | _ => ⟨S4096x3, .i32⟩

abbrev hbmTy0_1 (i : Nat) : BufTy := match i % 128 with
  | 0 => ⟨S4096, .i32⟩
  | 1 => ⟨S4096, .i1⟩
  | 2 => ⟨S_, .i32⟩
  | 3 => ⟨S4096, .i32⟩
  | 4 => ⟨S4096, .i32⟩
  | 5 => ⟨S4096, .i32⟩
  | 6 => ⟨S4096x1, .i32⟩
  | 7 => ⟨S4096x128, .f32⟩
  | 8 => ⟨S4096x1, .i32⟩
  | 9 => ⟨S4096, .i32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S4096x128, .f32⟩
  | 19 => ⟨S4096x1, .i32⟩
  | 20 => ⟨S4096, .i32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S4096x128, .f32⟩
  | 30 => ⟨S4096x1, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096x128, .f32⟩
  | 41 => ⟨S4096, .f32⟩
  | 42 => ⟨S4096x64x1, .i32⟩
  | 43 => ⟨S4096x64, .i32⟩
  | 44 => ⟨S_, .i32⟩
  | 45 => ⟨S4096x64, .i32⟩
  | 46 => ⟨S4096x64, .i1⟩
  | 47 => ⟨S_, .i32⟩
  | 48 => ⟨S4096x64, .i32⟩
  | 49 => ⟨S4096x64, .i32⟩
  | 50 => ⟨S4096x64, .i32⟩
  | 51 => ⟨S4096x64x1, .i32⟩
  | 52 => ⟨S4096x64x128, .f32⟩
  | 53 => ⟨S4096x64x1, .i32⟩
  | 54 => ⟨S4096x64, .i32⟩
  | 55 => ⟨S_, .i32⟩
  | 56 => ⟨S4096x64, .i32⟩
  | 57 => ⟨S4096x64, .i1⟩
  | 58 => ⟨S_, .i32⟩
  | 59 => ⟨S4096x64, .i32⟩
  | 60 => ⟨S4096x64, .i32⟩
  | 61 => ⟨S4096x64, .i32⟩
  | 62 => ⟨S4096x64x1, .i32⟩
  | 63 => ⟨S4096x64x128, .f32⟩
  | 64 => ⟨S4096x64x1, .i32⟩
  | 65 => ⟨S4096x64, .i32⟩
  | 66 => ⟨S_, .i32⟩
  | 67 => ⟨S4096x64, .i32⟩
  | 68 => ⟨S4096x64, .i1⟩
  | 69 => ⟨S_, .i32⟩
  | 70 => ⟨S4096x64, .i32⟩
  | 71 => ⟨S4096x64, .i32⟩
  | 72 => ⟨S4096x64, .i32⟩
  | 73 => ⟨S4096x64x1, .i32⟩
  | 74 => ⟨S4096x64x128, .f32⟩
  | 75 => ⟨S4096x64x1, .i32⟩
  | 76 => ⟨S4096x64, .i32⟩
  | 77 => ⟨S_, .i32⟩
  | 78 => ⟨S4096x64, .i32⟩
  | 79 => ⟨S4096x64, .i1⟩
  | 80 => ⟨S_, .i32⟩
  | 81 => ⟨S4096x64, .i32⟩
  | 82 => ⟨S4096x64, .i32⟩
  | 83 => ⟨S4096x64, .i32⟩
  | 84 => ⟨S4096x64x1, .i32⟩
  | 85 => ⟨S4096x64x128, .f32⟩
  | 86 => ⟨S4096x64, .f32⟩
  | _ => ⟨S4096x3, .i32⟩

abbrev hbmTy (i : Nat) : BufTy := match i / 128 with
  | 0 => hbmTy0_0 i
  | 1 => hbmTy0_1 i
  | _ => ⟨S4096x3, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S1024, .f32⟩
  | .local _ .vmem, ⟨41, _⟩ => ⟨S1024, .f32⟩
  | .local _ .vmem, ⟨42, _⟩ => ⟨S64x64x128, .f32⟩
  | .local _ .vmem, ⟨43, _⟩ => ⟨S64x64x128, .f32⟩
  | .local _ .vmem, ⟨44, _⟩ => ⟨S64x64x128, .f32⟩
  | .local _ .vmem, ⟨45, _⟩ => ⟨S64x64x128, .f32⟩
  | .local _ .vmem, ⟨46, _⟩ => ⟨S64x64x128, .f32⟩
  | .local _ .vmem, ⟨47, _⟩ => ⟨S64x64x128, .f32⟩
  | .local _ .vmem, ⟨48, _⟩ => ⟨S64x64x128, .f32⟩
  | .local _ .vmem, ⟨49, _⟩ => ⟨S64x64x128, .f32⟩
  | .local _ .vmem, ⟨50, _⟩ => ⟨S64x128, .f32⟩
  | .local _ .vmem, ⟨51, _⟩ => ⟨S64x128, .f32⟩
  | .local _ .vmem, ⟨52, _⟩ => ⟨S64x128, .f32⟩
  | .local _ .vmem, ⟨53, _⟩ => ⟨S64x128, .f32⟩
  | .local _ .vmem, ⟨54, _⟩ => ⟨S64x64, .f32⟩
  | .local _ .vmem, ⟨55, _⟩ => ⟨S64x64, .f32⟩
  | _, _ => ⟨S4096x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_6 : Ref sig .tc := ⟨.hbm, 68, rfl⟩
abbrev main_v47 : Ref sig .tc := ⟨.hbm, 69, rfl⟩
abbrev main_v48 : Ref sig .tc := ⟨.hbm, 70, rfl⟩
abbrev main_c_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62_0 : Ref sig .tc := ⟨.hbm, 87, rfl⟩
abbrev main_v62_1 : Ref sig .tc := ⟨.hbm, 88, rfl⟩
abbrev main_v63 : Ref sig .tc := ⟨.hbm, 89, rfl⟩
abbrev main_v64 : Ref sig .tc := ⟨.hbm, 90, rfl⟩
abbrev main_c_10 : Ref sig .tc := ⟨.hbm, 91, rfl⟩
abbrev main_v65 : Ref sig .tc := ⟨.hbm, 92, rfl⟩
abbrev main_v66 : Ref sig .tc := ⟨.hbm, 93, rfl⟩
abbrev main_c_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_12 : Ref sig .tc := ⟨.hbm, 102, rfl⟩
abbrev main_v74 : Ref sig .tc := ⟨.hbm, 103, rfl⟩
abbrev main_v75 : Ref sig .tc := ⟨.hbm, 104, rfl⟩
abbrev main_c_13 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call0_cst : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_call0_v5 : Ref sig .tc := ⟨.hbm, 117, rfl⟩
abbrev main_call0_v6 : Ref sig .tc := ⟨.hbm, 118, rfl⟩
abbrev main_call0_v7 : Ref sig .tc := ⟨.hbm, 119, rfl⟩
abbrev main_call0_v8 : Ref sig .tc := ⟨.hbm, 120, rfl⟩
abbrev main_call0_v9 : Ref sig .tc := ⟨.hbm, 121, rfl⟩
abbrev main_call0_v10 : Ref sig .tc := ⟨.hbm, 122, rfl⟩
abbrev main_call0_v11 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_14 : Ref sig .tc := ⟨.hbm, 127, rfl⟩
abbrev main_v84 : Ref sig .tc := ⟨.hbm, 128, rfl⟩
abbrev main_v85 : Ref sig .tc := ⟨.hbm, 129, rfl⟩
abbrev main_c_15 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_c_16 : Ref sig .tc := ⟨.hbm, 138, rfl⟩
abbrev main_v93 : Ref sig .tc := ⟨.hbm, 139, rfl⟩
abbrev main_v94 : Ref sig .tc := ⟨.hbm, 140, rfl⟩
abbrev main_c_17 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_18 : Ref sig .tc := ⟨.hbm, 149, rfl⟩
abbrev main_v102 : Ref sig .tc := ⟨.hbm, 150, rfl⟩
abbrev main_v103 : Ref sig .tc := ⟨.hbm, 151, rfl⟩
abbrev main_c_19 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_20 : Ref sig .tc := ⟨.hbm, 160, rfl⟩
abbrev main_v111 : Ref sig .tc := ⟨.hbm, 161, rfl⟩
abbrev main_v112 : Ref sig .tc := ⟨.hbm, 162, rfl⟩
abbrev main_c_21 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_c_22 : Ref sig .tc := ⟨.hbm, 172, rfl⟩
abbrev main_v121 : Ref sig .tc := ⟨.hbm, 173, rfl⟩
abbrev main_v122 : Ref sig .tc := ⟨.hbm, 174, rfl⟩
abbrev main_c_23 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_c_24 : Ref sig .tc := ⟨.hbm, 183, rfl⟩
abbrev main_v130 : Ref sig .tc := ⟨.hbm, 184, rfl⟩
abbrev main_v131 : Ref sig .tc := ⟨.hbm, 185, rfl⟩
abbrev main_c_25 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_c_26 : Ref sig .tc := ⟨.hbm, 194, rfl⟩
abbrev main_v139 : Ref sig .tc := ⟨.hbm, 195, rfl⟩
abbrev main_v140 : Ref sig .tc := ⟨.hbm, 196, rfl⟩
abbrev main_c_27 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_c_28 : Ref sig .tc := ⟨.hbm, 205, rfl⟩
abbrev main_v148 : Ref sig .tc := ⟨.hbm, 206, rfl⟩
abbrev main_v149 : Ref sig .tc := ⟨.hbm, 207, rfl⟩
abbrev main_c_29 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc4_stg6_0 : Ref sig .tc := ⟨.vmem, 54, rfl⟩
abbrev cc4_stg6_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem4_1 : DmaSem sig := 51
abbrev cc4_sem5_0 : DmaSem sig := 52
abbrev cc4_sem5_1 : DmaSem sig := 53
abbrev cc4_sem6_0 : DmaSem sig := 54
abbrev cc4_sem6_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1024x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![64], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S64x64x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S64x64x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S64x64x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S64x64x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S64x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S64x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S64x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S5000x128_S5000x128 : S5000x128.ShapeCasts S5000x128
  slices_S4096x3_S4096x1_0_1 : S4096x3.Slices ![0, 1] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x128 : S_.BroadcastsInDim S4096x128 (![] : Fin 0 → Fin S4096x128.rank)
  slices_S4096x3_S4096x1_0_0 : S4096x3.Slices ![0, 0] S4096x1
  slices_S4096x3_S4096x1_0_2 : S4096x3.Slices ![0, 2] S4096x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  inb_S1024_S1024_0 : ∀ a, (![0] : Fin 1 → Nat) a + S1024.size a ≤ S1024.size a
  h_S1024 : 0 < S1024.numel
  slices_S4096x64x3_S4096x64x1_0_0_0 : S4096x64x3.Slices ![0, 0, 0] S4096x64x1
  shapeCasts_S4096x64x1_S4096x64 : S4096x64x1.ShapeCasts S4096x64
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  slices_S4096x64x3_S4096x64x1_0_0_2 : S4096x64x3.Slices ![0, 0, 2] S4096x64x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x1x128 : S64x128.ShapeCasts S64x1x128
  inb_S64x64x128_S64x64x128_0_0_0 : ∀ a, (![0, 0, 0] : Fin 3 → Nat) a + S64x64x128.size a ≤ S64x64x128.size a
  h_S64x64x128 : 0 < S64x64x128.numel
  shapeCasts_S64x64x128_S64x64x128 : S64x64x128.ShapeCasts S64x64x128
  broadcasts_S64x1x128_S64x64x128 : S64x1x128.Broadcasts S64x64x128
  reduces_S64x64x128_S64x64 : S64x64x128.Reduces [2] S64x64
  inb_S64x64_S64x64_0_0 : ∀ a, (![0, 0] : Fin 2 → Nat) a + S64x64.size a ≤ S64x64.size a
  h_S64x64 : 0 < S64x64.numel
  dot_S5000x128_S128x128_S5000x128_1_0_0_1_n_n_wf : DotDims.WF S5000x128 S128x128 S5000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  gather_S500x128_S4096x1_S4096x128_1_0_n_n_0_1_1128_wf : GatherDims.WF S500x128 S4096x1 S4096x128 [1] [0] [] [0] [] 1 ![1, 128]
  gather_S100000x128_S4096x1_S4096x128_1_0_n_n_0_1_1128_wf : GatherDims.WF S100000x128 S4096x1 S4096x128 [1] [0] [] [0] [] 1 ![1, 128]
  gather_S100000x128_S4096x64x1_S4096x64x128_2_0_n_n_0_2_1128_wf : GatherDims.WF S100000x128 S4096x64x1 S4096x64x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S4096x128.size a
  hwx3_0 : ∀ i : grid3.Coords, EltTy.bits .f32 = 32 ∨ (Rect.block (s := S4096x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S4096x128.size a
  hwx3_1 : ∀ i : grid3.Coords, EltTy.bits .f32 = 32 ∨ (Rect.block (s := S4096x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S4096x128.size a
  hwx3_2 : ∀ i : grid3.Coords, EltTy.bits .f32 = 32 ∨ (Rect.block (s := S4096x128) S1024x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S4096x128.size a
  hwx3_3 : ∀ i : grid3.Coords, EltTy.bits .f32 = 32 ∨ (Rect.block (s := S4096x128) S1024x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S4096x128.size a
  hwx3_4 : ∀ i : grid3.Coords, EltTy.bits .f32 = 32 ∨ (Rect.block (s := S4096x128) S1024x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x128.size a ≤ S4096x128.size a
  hwx3_5 : ∀ i : grid3.Coords, EltTy.bits .f32 = 32 ∨ (Rect.block (s := S4096x128) S1024x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024.size a ≤ S4096.size a
  hwx3_6 : ∀ i : grid3.Coords, EltTy.bits .f32 = 32 ∨ (Rect.block (s := S4096) S1024.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x64x128.size a ≤ S4096x64x128.size a
  hwx4_0 : ∀ i : grid4.Coords, EltTy.bits .f32 = 32 ∨ (Rect.block (s := S4096x64x128) S64x64x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x64x128.size a ≤ S4096x64x128.size a
  hwx4_1 : ∀ i : grid4.Coords, EltTy.bits .f32 = 32 ∨ (Rect.block (s := S4096x64x128) S64x64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S64x64x128.size a ≤ S4096x64x128.size a
  hwx4_2 : ∀ i : grid4.Coords, EltTy.bits .f32 = 32 ∨ (Rect.block (s := S4096x64x128) S64x64x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S64x64x128.size a ≤ S4096x64x128.size a
  hwx4_3 : ∀ i : grid4.Coords, EltTy.bits .f32 = 32 ∨ (Rect.block (s := S4096x64x128) S64x64x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S64x128.size a ≤ S4096x128.size a
  hwx4_4 : ∀ i : grid4.Coords, EltTy.bits .f32 = 32 ∨ (Rect.block (s := S4096x128) S64x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S64x128.size a ≤ S4096x128.size a
  hwx4_5 : ∀ i : grid4.Coords, EltTy.bits .f32 = 32 ∨ (Rect.block (s := S4096x128) S64x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S4096x64.size a
  hwx4_6 : ∀ i : grid4.Coords, EltTy.bits .f32 = 32 ∨ (Rect.block (s := S4096x64) S64x64.size (cc4_transform_6 i) (hinb4_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def gather_S500x128_S4096x1_S4096x128_1_0_n_n_0_1_1128 : GatherDims S500x128 S4096x1 S4096x128 where
  offsetDims := [1]
  collapsedSliceDims := [0]
  operandBatchingDims := []
  startIndicesBatchingDims := []
  startIndexMap := [0]
  indexVectorDim := 1
  sliceSizes := ![1, 128]
  wf := gather_S500x128_S4096x1_S4096x128_1_0_n_n_0_1_1128_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S100000x128_S4096x64x1_S4096x64x128_2_0_n_n_0_2_1128 : GatherDims S100000x128 S4096x64x1 S4096x64x128 where
  offsetDims := [2]
  collapsedSliceDims := [0]
  operandBatchingDims := []
  startIndicesBatchingDims := []
  startIndexMap := [0]
  indexVectorDim := 2
  sliceSizes := ![1, 128]
  wf := gather_S100000x128_S4096x64x1_S4096x64x128_2_0_n_n_0_2_1128_wf

abbrev win0_0 : Pipeline.Window sig grid0 :=
  Pipeline.Window.ofSpec (Memref.whole main_arg5) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v34_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62_1) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v90) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v99) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v108) S1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v117) S1024x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1024x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v81) S1024x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v118) S1024.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v127) S64x64x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v136) S64x64x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v145) S64x64x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v154) S64x64x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v71) S64x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v81) S64x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v155) S64x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S4096x3 : Shape := ⟨2, ![4096, 3]⟩
abbrev S4096x64x3 : Shape := ⟨3, ![4096, 64, 3]⟩
abbrev S1100000 : Shape := ⟨1, ![1100000]⟩
abbrev S100000x128 : Shape := ⟨2, ![100000, 128]⟩
abbrev S500x128 : Shape := ⟨2, ![500, 128]⟩
abbrev S128x128 : Shape := ⟨2, ![128, 128]⟩
abbrev S4096x1 : Shape := ⟨2, ![4096, 1]⟩
abbrev S4096 : Shape := ⟨1, ![4096]⟩
abbrev S_ : Shape := ⟨0, ![]⟩
abbrev S4096x128 : Shape := ⟨2, ![4096, 128]⟩
abbrev S1100000x1 : Shape := ⟨2, ![1100000, 1]⟩
abbrev S1100000x128 : Shape := ⟨2, ![1100000, 128]⟩
abbrev S4096x64x1 : Shape := ⟨3, ![4096, 64, 1]⟩
abbrev S4096x64 : Shape := ⟨2, ![4096, 64]⟩
abbrev S4096x64x128 : Shape := ⟨3, ![4096, 64, 128]⟩
abbrev S4096x1x128 : Shape := ⟨3, ![4096, 1, 128]⟩

abbrev nBuf : Space → Nat
  | .hbm => 283
  | .vmem => 0
  | .smem => 0
  | _ => 0

abbrev hbmTy0_0 (i : Nat) : BufTy := match i % 128 with
  | 0 => ⟨S4096x3, .i32⟩
  | 1 => ⟨S4096x64x3, .i32⟩
  | 2 => ⟨S1100000, .i32⟩
  | 3 => ⟨S1100000, .i32⟩
  | 4 => ⟨S1100000, .f32⟩
  | 5 => ⟨S100000x128, .f32⟩
  | 6 => ⟨S100000x128, .f32⟩
  | 7 => ⟨S500x128, .f32⟩
  | 8 => ⟨S500x128, .f32⟩
  | 9 => ⟨S128x128, .f32⟩
  | 10 => ⟨S128x128, .f32⟩
  | 11 => ⟨S4096x1, .i32⟩
  | 12 => ⟨S4096, .i32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S4096x128, .f32⟩
  | 22 => ⟨S4096x1, .i32⟩
  | 23 => ⟨S4096, .i32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096x128, .f32⟩
  | 33 => ⟨S_, .f32⟩
  | 34 => ⟨S4096x128, .f32⟩
  | 35 => ⟨S4096x128, .f32⟩
  | 36 => ⟨S4096x128, .f32⟩
  | 37 => ⟨S4096x128, .f32⟩
  | 38 => ⟨S4096x128, .i1⟩
  | 39 => ⟨S4096x128, .f32⟩
  | 40 => ⟨S4096x128, .f32⟩
  | 41 => ⟨S4096x128, .f32⟩
  | 42 => ⟨S4096x128, .f32⟩
  | 43 => ⟨S4096x128, .f32⟩
  | 44 => ⟨S4096x128, .f32⟩
  | 45 => ⟨S4096x128, .f32⟩
  | 46 => ⟨S4096x128, .f32⟩
  | 47 => ⟨S_, .f32⟩
  | 48 => ⟨S100000x128, .f32⟩
  | 49 => ⟨S100000x128, .f32⟩
  | 50 => ⟨S100000x128, .f32⟩
  | 51 => ⟨S100000x128, .f32⟩
  | 52 => ⟨S100000x128, .i1⟩
  | 53 => ⟨S100000x128, .f32⟩
  | 54 => ⟨S100000x128, .f32⟩
  | 55 => ⟨S100000x128, .f32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S128x128, .f32⟩
  | 62 => ⟨S100000x128, .f32⟩
  | 63 => ⟨S128x128, .f32⟩
  | 64 => ⟨S128x128, .f32⟩
  | 65 => ⟨S100000x128, .f32⟩
  | 66 => ⟨S1100000x1, .f32⟩
  | 67 => ⟨S_, .i32⟩
  | 68 => ⟨S1100000, .i32⟩
  | 69 => ⟨S1100000, .i1⟩
  | 70 => ⟨S_, .i32⟩
  | 71 => ⟨S1100000, .i32⟩
  | 72 => ⟨S1100000, .i32⟩
  | 73 => ⟨S1100000, .i32⟩
  | 74 => ⟨S1100000x1, .i32⟩
  | 75 => ⟨S1100000x128, .f32⟩
  | 76 => ⟨S1100000x128, .f32⟩
  | 77 => ⟨S1100000x128, .f32⟩
  | 78 => ⟨S1100000, .f32⟩
  | 79 => ⟨S1100000x1, .f32⟩
  | 80 => ⟨S_, .i32⟩
  | 81 => ⟨S1100000, .i32⟩
  | 82 => ⟨S1100000, .i1⟩
  | 83 => ⟨S_, .i32⟩
  | 84 => ⟨S1100000, .i32⟩
  | 85 => ⟨S1100000, .i32⟩
  | 86 => ⟨S1100000, .i32⟩
  | 87 => ⟨S1100000x1, .i32⟩
  | 88 => ⟨S1100000x128, .f32⟩
  | 89 => ⟨S1100000x128, .f32⟩
  | 90 => ⟨S1100000x128, .f32⟩
  | 91 => ⟨S_, .f32⟩
  | 92 => ⟨S100000x128, .f32⟩
  | 93 => ⟨S1100000x1, .i32⟩
  | 94 => ⟨S100000x128, .f32⟩
  | 95 => ⟨S_, .f32⟩
  | 96 => ⟨S100000x128, .f32⟩
  | 97 => ⟨S1100000x1, .i32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S128x128, .f32⟩
  | 116 => ⟨S100000x128, .f32⟩
  | 117 => ⟨S128x128, .f32⟩
  | 118 => ⟨S128x128, .f32⟩
  | 119 => ⟨S100000x128, .f32⟩
  | 120 => ⟨S1100000x1, .f32⟩
  | 121 => ⟨S_, .i32⟩
  | 122 => ⟨S1100000, .i32⟩
  | 123 => ⟨S1100000, .i1⟩
  | 124 => ⟨S_, .i32⟩
  | 125 => ⟨S1100000, .i32⟩
  | 126 => ⟨S1100000, .i32⟩
  | 127 => ⟨S1100000, .i32⟩
  | _ => ⟨S4096x3, .i32⟩

abbrev hbmTy0_1 (i : Nat) : BufTy := match i % 128 with
  | 0 => ⟨S1100000x1, .i32⟩
  | 1 => ⟨S1100000x128, .f32⟩
  | 2 => ⟨S1100000x128, .f32⟩
  | 3 => ⟨S1100000x128, .f32⟩
  | 4 => ⟨S1100000, .f32⟩
  | 5 => ⟨S1100000x1, .f32⟩
  | 6 => ⟨S_, .i32⟩
  | 7 => ⟨S1100000, .i32⟩
  | 8 => ⟨S1100000, .i1⟩
  | 9 => ⟨S_, .i32⟩
  | 10 => ⟨S1100000, .i32⟩
  | 11 => ⟨S1100000, .i32⟩
  | 12 => ⟨S1100000, .i32⟩
  | 13 => ⟨S1100000x1, .i32⟩
  | 14 => ⟨S1100000x128, .f32⟩
  | 15 => ⟨S1100000x128, .f32⟩
  | 16 => ⟨S1100000x128, .f32⟩
  | 17 => ⟨S_, .f32⟩
  | 18 => ⟨S100000x128, .f32⟩
  | 19 => ⟨S1100000x1, .i32⟩
  | 20 => ⟨S100000x128, .f32⟩
  | 21 => ⟨S_, .f32⟩
  | 22 => ⟨S100000x128, .f32⟩
  | 23 => ⟨S1100000x1, .i32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S4096x1, .i32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S4096x128, .f32⟩
  | 52 => ⟨S4096x1, .i32⟩
  | 53 => ⟨S4096, .i32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S4096x128, .f32⟩
  | 63 => ⟨S4096x1, .i32⟩
  | 64 => ⟨S4096, .i32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S4096x1, .i32⟩
  | 73 => ⟨S4096x128, .f32⟩
  | 74 => ⟨S4096x1, .i32⟩
  | 75 => ⟨S4096, .i32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S4096x1, .i32⟩
  | 84 => ⟨S4096x128, .f32⟩
  | 85 => ⟨S4096x128, .f32⟩
  | 86 => ⟨S4096x128, .f32⟩
  | 87 => ⟨S4096x128, .f32⟩
  | 88 => ⟨S4096x128, .f32⟩
  | 89 => ⟨S_, .f32⟩
  | 90 => ⟨S4096, .f32⟩
  | 91 => ⟨S4096x128, .f32⟩
  | 92 => ⟨S4096x128, .f32⟩
  | 93 => ⟨S_, .f32⟩
  | 94 => ⟨S4096, .f32⟩
  | 95 => ⟨S4096, .f32⟩
  | 96 => ⟨S4096x64x1, .i32⟩
  | 97 => ⟨S4096x64, .i32⟩
  | 98 => ⟨S_, .i32⟩
  | 99 => ⟨S4096x64, .i32⟩
  | 100 => ⟨S4096x64, .i1⟩
  | 101 => ⟨S_, .i32⟩
  | 102 => ⟨S4096x64, .i32⟩
  | 103 => ⟨S4096x64, .i32⟩
  | 104 => ⟨S4096x64, .i32⟩
  | 105 => ⟨S4096x64x1, .i32⟩
  | 106 => ⟨S4096x64x128, .f32⟩
  | 107 => ⟨S4096x64x1, .i32⟩
  | 108 => ⟨S4096x64, .i32⟩
  | 109 => ⟨S_, .i32⟩
  | 110 => ⟨S4096x64, .i32⟩
  | 111 => ⟨S4096x64, .i1⟩
  | 112 => ⟨S_, .i32⟩
  | 113 => ⟨S4096x64, .i32⟩
  | 114 => ⟨S4096x64, .i32⟩
  | 115 => ⟨S4096x64, .i32⟩
  | 116 => ⟨S4096x64x1, .i32⟩
  | 117 => ⟨S4096x64x128, .f32⟩
  | 118 => ⟨S4096x64x1, .i32⟩
  | 119 => ⟨S4096x64, .i32⟩
  | 120 => ⟨S_, .i32⟩
  | 121 => ⟨S4096x64, .i32⟩
  | 122 => ⟨S4096x64, .i1⟩
  | 123 => ⟨S_, .i32⟩
  | 124 => ⟨S4096x64, .i32⟩
  | 125 => ⟨S4096x64, .i32⟩
  | 126 => ⟨S4096x64, .i32⟩
  | 127 => ⟨S4096x64x1, .i32⟩
  | _ => ⟨S4096x3, .i32⟩

abbrev hbmTy0_2 (i : Nat) : BufTy := match i % 128 with
  | 0 => ⟨S4096x64x128, .f32⟩
  | 1 => ⟨S4096x64x1, .i32⟩
  | 2 => ⟨S4096x64, .i32⟩
  | 3 => ⟨S_, .i32⟩
  | 4 => ⟨S4096x64, .i32⟩
  | 5 => ⟨S4096x64, .i1⟩
  | 6 => ⟨S_, .i32⟩
  | 7 => ⟨S4096x64, .i32⟩
  | 8 => ⟨S4096x64, .i32⟩
  | 9 => ⟨S4096x64, .i32⟩
  | 10 => ⟨S4096x64x1, .i32⟩
  | 11 => ⟨S4096x64x128, .f32⟩
  | 12 => ⟨S4096x1x128, .f32⟩
  | 13 => ⟨S4096x64x128, .f32⟩
  | 14 => ⟨S4096x64x128, .f32⟩
  | 15 => ⟨S4096x1x128, .f32⟩
  | 16 => ⟨S4096x64x128, .f32⟩
  | 17 => ⟨S4096x64x128, .f32⟩
  | 18 => ⟨S4096x64x128, .f32⟩
  | 19 => ⟨S4096x64x128, .f32⟩
  | 20 => ⟨S_, .f32⟩
  | 21 => ⟨S4096x64, .f32⟩
  | 22 => ⟨S4096x64x128, .f32⟩
  | 23 => ⟨S4096x64x128, .f32⟩
  | 24 => ⟨S_, .f32⟩
  | 25 => ⟨S4096x64, .f32⟩
  | 26 => ⟨S4096x64, .f32⟩
  | _ => ⟨S4096x3, .i32⟩

abbrev hbmTy (i : Nat) : BufTy := match i / 128 with
  | 0 => hbmTy0_0 i
  | 1 => hbmTy0_1 i
  | 2 => hbmTy0_2 i
  | _ => ⟨S4096x3, .i32⟩

abbrev bufTy : (tb : Table) → Fin (tcTables nBuf tb) → BufTy
  | .hbm, ⟨i, _⟩ => hbmTy i
  | _, _ => ⟨S4096x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v18 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_c_3 : Ref sig .tc := ⟨.hbm, 67, rfl⟩
abbrev main_v26 : Ref sig .tc := ⟨.hbm, 68, rfl⟩
abbrev main_v27 : Ref sig .tc := ⟨.hbm, 69, rfl⟩
abbrev main_c_4 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_c_5 : Ref sig .tc := ⟨.hbm, 80, rfl⟩
abbrev main_v37 : Ref sig .tc := ⟨.hbm, 81, rfl⟩
abbrev main_v38 : Ref sig .tc := ⟨.hbm, 82, rfl⟩
abbrev main_c_6 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_7 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_call2_cst : Ref sig .tc := ⟨.hbm, 100, rfl⟩
abbrev main_call2_v0 : Ref sig .tc := ⟨.hbm, 101, rfl⟩
abbrev main_v53 : Ref sig .tc := ⟨.hbm, 102, rfl⟩
abbrev main_v54 : Ref sig .tc := ⟨.hbm, 103, rfl⟩
abbrev main_call3_cst : Ref sig .tc := ⟨.hbm, 104, rfl⟩
abbrev main_call3_v0 : Ref sig .tc := ⟨.hbm, 105, rfl⟩
abbrev main_v55 : Ref sig .tc := ⟨.hbm, 106, rfl⟩
abbrev main_v56 : Ref sig .tc := ⟨.hbm, 107, rfl⟩
abbrev main_cst_8 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_9 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_c_10 : Ref sig .tc := ⟨.hbm, 121, rfl⟩
abbrev main_v68 : Ref sig .tc := ⟨.hbm, 122, rfl⟩
abbrev main_v69 : Ref sig .tc := ⟨.hbm, 123, rfl⟩
abbrev main_c_11 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_c_12 : Ref sig .tc := ⟨.hbm, 134, rfl⟩
abbrev main_v79 : Ref sig .tc := ⟨.hbm, 135, rfl⟩
abbrev main_v80 : Ref sig .tc := ⟨.hbm, 136, rfl⟩
abbrev main_c_13 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_14 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_15 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_call4_cst : Ref sig .tc := ⟨.hbm, 154, rfl⟩
abbrev main_call4_v0 : Ref sig .tc := ⟨.hbm, 155, rfl⟩
abbrev main_v95 : Ref sig .tc := ⟨.hbm, 156, rfl⟩
abbrev main_v96 : Ref sig .tc := ⟨.hbm, 157, rfl⟩
abbrev main_call5_cst : Ref sig .tc := ⟨.hbm, 158, rfl⟩
abbrev main_call5_v0 : Ref sig .tc := ⟨.hbm, 159, rfl⟩
abbrev main_v97 : Ref sig .tc := ⟨.hbm, 160, rfl⟩
abbrev main_v98 : Ref sig .tc := ⟨.hbm, 161, rfl⟩
abbrev main_cst_16 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_17 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_c_18 : Ref sig .tc := ⟨.hbm, 171, rfl⟩
abbrev main_v106 : Ref sig .tc := ⟨.hbm, 172, rfl⟩
abbrev main_v107 : Ref sig .tc := ⟨.hbm, 173, rfl⟩
abbrev main_c_19 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_c_20 : Ref sig .tc := ⟨.hbm, 182, rfl⟩
abbrev main_v115 : Ref sig .tc := ⟨.hbm, 183, rfl⟩
abbrev main_v116 : Ref sig .tc := ⟨.hbm, 184, rfl⟩
abbrev main_c_21 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_c_22 : Ref sig .tc := ⟨.hbm, 193, rfl⟩
abbrev main_v124 : Ref sig .tc := ⟨.hbm, 194, rfl⟩
abbrev main_v125 : Ref sig .tc := ⟨.hbm, 195, rfl⟩
abbrev main_c_23 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_c_24 : Ref sig .tc := ⟨.hbm, 204, rfl⟩
abbrev main_v133 : Ref sig .tc := ⟨.hbm, 205, rfl⟩
abbrev main_v134 : Ref sig .tc := ⟨.hbm, 206, rfl⟩
abbrev main_c_25 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_cst_26 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_cst_27 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_c_28 : Ref sig .tc := ⟨.hbm, 226, rfl⟩
abbrev main_v151 : Ref sig .tc := ⟨.hbm, 227, rfl⟩
abbrev main_v152 : Ref sig .tc := ⟨.hbm, 228, rfl⟩
abbrev main_c_29 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_c_30 : Ref sig .tc := ⟨.hbm, 237, rfl⟩
abbrev main_v160 : Ref sig .tc := ⟨.hbm, 238, rfl⟩
abbrev main_v161 : Ref sig .tc := ⟨.hbm, 239, rfl⟩
abbrev main_c_31 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_c_32 : Ref sig .tc := ⟨.hbm, 248, rfl⟩
abbrev main_v169 : Ref sig .tc := ⟨.hbm, 249, rfl⟩
abbrev main_v170 : Ref sig .tc := ⟨.hbm, 250, rfl⟩
abbrev main_c_33 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_c_34 : Ref sig .tc := ⟨.hbm, 259, rfl⟩
abbrev main_v178 : Ref sig .tc := ⟨.hbm, 260, rfl⟩
abbrev main_v179 : Ref sig .tc := ⟨.hbm, 261, rfl⟩
abbrev main_c_35 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_cst_36 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_cst_37 : Ref sig .tc := ⟨.hbm, 280, rfl⟩
abbrev main_v196 : Ref sig .tc := ⟨.hbm, 281, rfl⟩
abbrev main_v197 : Ref sig .tc := ⟨.hbm, 282, rfl⟩

abbrev nD : Nat := 1
abbrev τ : Topo := Topo.v7x

variable {F : FTy → Type} [FloatOps F]

class Facts₀ : Prop where
  slices_S4096x3_S4096x1_0_1 : S4096x3.Slices ![0, 1] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x128 : S_.BroadcastsInDim S4096x128 (![] : Fin 0 → Fin S4096x128.rank)
  bcast_S_S100000x128 : S_.BroadcastsInDim S100000x128 (![] : Fin 0 → Fin S100000x128.rank)
  transposes_S128x128_S128x128_1_0 : S128x128.Transposes [1, 0] S128x128
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x128_0_1 : S1100000x1.BroadcastsInDim S1100000x128 (![0, 1] : Fin 2 → Fin S1100000x128.rank)
  slices_S4096x3_S4096x1_0_0 : S4096x3.Slices ![0, 0] S4096x1
  slices_S4096x3_S4096x1_0_2 : S4096x3.Slices ![0, 2] S4096x1
  reducesTo_S4096x128_S4096_d1 : S4096x128.ReducesTo [1] S4096
  h_S_ : 0 < S_.numel
  slices_S4096x64x3_S4096x64x1_0_0_0 : S4096x64x3.Slices ![0, 0, 0] S4096x64x1
  shapeCasts_S4096x64x1_S4096x64 : S4096x64x1.ShapeCasts S4096x64
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  slices_S4096x64x3_S4096x64x1_0_0_2 : S4096x64x3.Slices ![0, 0, 2] S4096x64x1
  bcast_S4096x128_S4096x1x128_0_2 : S4096x128.BroadcastsInDim S4096x1x128 (![0, 2] : Fin 2 → Fin S4096x1x128.rank)
  bcast_S4096x1x128_S4096x64x128_0_1_2 : S4096x1x128.BroadcastsInDim S4096x64x128 (![0, 1, 2] : Fin 3 → Fin S4096x64x128.rank)
  reducesTo_S4096x64x128_S4096x64_d2 : S4096x64x128.ReducesTo [2] S4096x64
  gather_S500x128_S4096x1_S4096x128_1_0_n_n_0_1_1128_wf : GatherDims.WF S500x128 S4096x1 S4096x128 [1] [0] [] [0] [] 1 ![1, 128]
  dot_S100000x128_S128x128_S100000x128_1_0_0_1_n_n_wf : DotDims.WF S100000x128 S128x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  gather_S100000x128_S4096x1_S4096x128_1_0_n_n_0_1_1128_wf : GatherDims.WF S100000x128 S4096x1 S4096x128 [1] [0] [] [0] [] 1 ![1, 128]
  gather_S100000x128_S4096x64x1_S4096x64x128_2_0_n_n_0_2_1128_wf : GatherDims.WF S100000x128 S4096x64x1 S4096x64x128 [2] [0] [] [0] [] 2 ![1, 128]

variable [Facts₀]

def gather_S500x128_S4096x1_S4096x128_1_0_n_n_0_1_1128 : GatherDims S500x128 S4096x1 S4096x128 where
  offsetDims := [1]
  collapsedSliceDims := [0]
  operandBatchingDims := []
  startIndicesBatchingDims := []
  startIndexMap := [0]
  indexVectorDim := 1
  sliceSizes := ![1, 128]
  wf := gather_S500x128_S4096x1_S4096x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S100000x128_S4096x64x1_S4096x64x128_2_0_n_n_0_2_1128 : GatherDims S100000x128 S4096x64x1 S4096x64x128 where
  offsetDims := [2]
  collapsedSliceDims := [0]
  operandBatchingDims := []
  startIndicesBatchingDims := []
  startIndexMap := [0]
  indexVectorDim := 2
  sliceSizes := ![1, 128]
  wf := gather_S100000x128_S4096x64x1_S4096x64x128_2_0_n_n_0_2_1128_wf

class Facts : Prop extends Facts₀ where

variable [Facts]
-- ==== Proof.KernelRun.lean ====
/-
  The kernel program's run with its two results named.

  @main is twelve segments: stretches of host operations and the five pallas_call regions. The generated frame proof
  carries, from segment to segment, what every unscoped buffer of the TensorCore holds (`Gen.W0` at the launch … `Gen.W12`
  after the last region) and ends with every such buffer at `Gen.W12`. The frame claim keeps of this only the eleven
  argument arrays. Here the same run is stated once more keeping, beside them, the two result buffers: the positive scores
  and the negative scores end at what `Gen.W12` holds there. What that is as a function of the arguments is the business
  of the modules that walk the twelve boundaries.
-/
import proofs.«129168_j42064909697221_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the argument arrays as launched. -/
theorem run : θ_run defs (onTc (τ := τ) (main (F := F))) ⟨m, fun _ => 0, ρ⟩ (fun r => ∀ c : Dev nD,
      r.2.mem ((c.tc : Thread nD τ).loc main_v118) = W12 m ρ c (Proc.devRef .tc main_v118)
      ∧ r.2.mem ((c.tc : Thread nD τ).loc main_v155) = W12 m ρ c (Proc.devRef .tc main_v155)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v118 (by decide)),
       h c _ (mem_uc main_v155 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Results

end
-- ==== Proof.Stages.lean ====
/-
  The dense stages of the two-layer interval graph convolution and of the triplet scores, as pure functions of
  whole arrays, spelt with the host's operations exactly as the reference program composes them.

  * `proj x Wt`      : the row-by-row product  (x · Wt)[n, j] = Σ_k x[n, k] · Wt[k, j]  of an entity table with a
                        128 × 128 matrix (already transposed by the caller).
  * `softplus x`     : max(x, 0) + log(1 + e^{-|x - 0|}), guarded by the test x - 0 ≠ x - 0 (never true of an
                        extended real), as jnp.logaddexp(x, 0) lowers.
  * `centre C R`, `radius C R` : the interval ReLU of the interval [C - R, C + R]: with lo = max(C - R, 0) and
                        hi = max(C + R, 0) the new centre is (hi + lo)/2 and the new radius (hi - lo)/2.
  * `posScore`, `negScore` : Σ_d |hr + rr + tr| - Σ_d |hc + rc - tc| over the 128 coordinates of a triplet's
                        embeddings; for the negatives the relation's row is shared by the 64 corrupted triplets.
-/
import proofs.«129168_j42064909697221_1_alg».proof.Proof.Gen.ReferenceIdeal
import Idealize.ShloMosaic.PureOps.Ideal

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- An entity table: one row of 128 coordinates per entity. -/
abbrev Table (F : FTy → Type) := (⟨S100000x128, .f32⟩ : BufTy).Contents (Elt F)
abbrev Mat (F : FTy → Type) := (⟨S128x128, .f32⟩ : BufTy).Contents (Elt F)
abbrev Rows (F : FTy → Type) := (⟨S4096x128, .f32⟩ : BufTy).Contents (Elt F)
abbrev Cube (F : FTy → Type) := (⟨S4096x64x128, .f32⟩ : BufTy).Contents (Elt F)

/-- The table of zeros and the table of halves. -/
def zeros : Table F := broadcastInDim S100000x128 ![] bcast_S_S100000x128 (constant S_ .f32 0x00000000#32)
def halves : Table F := broadcastInDim S100000x128 ![] bcast_S_S100000x128 (constant S_ .f32 0x3F000000#32)

/-- (x · Wt)[n, j] = Σ_k x[n, k] · Wt[k, j]. -/
def proj (x : Table F) (Wt : Mat F) : Table F :=
  Host.dotGeneral dot_S100000x128_S128x128_S100000x128_1_0_0_1_n_n none x Wt

/-- log(1 + e^x) in the overflow-free form max(x, 0) + log1p(e^{-|x|}). -/
def softplus (x : Table F) : Table F :=
  select (cmpf .une (subf x zeros) (subf x zeros)) (addf x zeros)
    (addf (maximumf x zeros) (Host.log1p (Host.exp (Host.negf (Host.absf (subf x zeros))))))

/-- The lower and the upper end of the interval, clipped at zero. -/
def lo (C R : Table F) : Table F := maximumf (subf C R) zeros
def hi (C R : Table F) : Table F := maximumf (addf C R) zeros

/-- The clipped interval's centre (hi + lo)/2 and radius (hi - lo)/2. -/
def centre (C R : Table F) : Table F := mulf halves (addf (hi C R) (lo C R))
def radius (C R : Table F) : Table F := mulf halves (subf (hi C R) (lo C R))

/-- Σ_d |hr + rr + tr| - Σ_d |hc + rc - tc|, one number per positive triplet. -/
def posScore (hc hr tc tr rc rr : Rows F) : (⟨S4096, .f32⟩ : BufTy).Contents (Elt F) :=
  subf (Host.reduceAdd (Host.absf (addf (addf hr rr) tr)) (constant S_ .f32 0x00000000#32) reducesTo_S4096x128_S4096_d1 h_S_)
    (Host.reduceAdd (Host.absf (subf (addf hc rc) tc)) (constant S_ .f32 0x00000000#32) reducesTo_S4096x128_S4096_d1 h_S_)

/-- A triplet's relation row repeated along the 64 corrupted triplets of its batch entry. -/
def alongNegatives (r : Rows F) : Cube F :=
  broadcastInDim S4096x64x128 ![0, 1, 2] bcast_S4096x1x128_S4096x64x128_0_1_2
    (broadcastInDim S4096x1x128 ![0, 2] bcast_S4096x128_S4096x1x128_0_2 r)

/-- The same score, one number per corrupted triplet, the relation shared along the 64 of them. -/
def negScore (hc hr tc tr : Cube F) (rc rr : Rows F) : (⟨S4096x64, .f32⟩ : BufTy).Contents (Elt F) :=
  subf (Host.reduceAdd (Host.absf (addf (addf hr (alongNegatives rr)) tr)) (constant S_ .f32 0x00000000#32) reducesTo_S4096x64x128_S4096x64_d2 h_S_)
    (Host.reduceAdd (Host.absf (subf (addf hc (alongNegatives rc)) tc)) (constant S_ .f32 0x00000000#32) reducesTo_S4096x64x128_S4096x64_d2 h_S_)

end Cert.ReferenceIdeal.Stages

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.RegionProject.lean ====
/-
  The two projection stages of the interval graph convolution, read off the kernel's projection regions.

  Each projection region walks the 100000 × 128 entity tables in 20 blocks of 5000 rows. At a point it holds one block
  of each of its two tables and the two whole 128 × 128 matrices, applies a pointwise map f to the blocks' entries and
  multiplies the result by a matrix: entry (r, j) of what it writes is  Σ_{k < 128} f(block)(r, k) · W(k, j).  On the
  extended reals the narrowing to 16-bit floats in front of the matrix unit is the identity and the unit's accumulation
  into zero is this plain sum, so the block written at point t is rows 5000 t … 5000 t + 4999 of the whole-table product
  (f(table)) · W, and the 20 blocks tile the table. The pointwise maps are: the identity (first layer, centres); the
  softplus log(1 + e^x) in its overflow-free form (first layer, radii); the centre (hi + lo)/2 and the radius (hi - lo)/2
  of the interval [C - R, C + R] clipped at zero (second layer).
-/
import proofs.«129168_j42064909697221_1_alg».proof.Proof.Gen.KernelIdeal.Frame
import proofs.«129168_j42064909697221_1_alg».proof.Proof.Stages
import proofs.«129168_j42064909697221_1_alg».proof.Proof.LibPlainProduct
import Idealize.ShloMosaic.Lib.Pipeline.Value
import Idealize.ShloMosaic.Lib.ValueIdx

noncomputable section

namespace Cert.KernelIdeal.Project

open Cert.KernelIdeal Cert.KernelIdeal.Gen Idealize.ShloMosaic Idealize.ShloMosaic.TcCoe Idealize.SL.Sem
open Idealize.ShloMosaic.Pipeline (Dat Cfg Window)
open Idealize.ShloMosaic.ValueIdx
open Cert.Lib.PlainProduct
open Cert.ReferenceIdeal.Stages (proj softplus centre radius lo hi zeros halves)
open scoped BigOperators

/-! ## The product at an entry -/

/-- The block product contracts the block's columns with the matrix's rows and has no batch axis. -/
theorem plain_block : IsPlain dot_S5000x128_S128x128_S5000x128_1_0_0_1_n_n := ⟨rfl, rfl, rfl, rfl, rfl, rfl⟩

/-- So does the whole-table product. -/
theorem plain_table : IsPlain Cert.ReferenceIdeal.dot_S100000x128_S128x128_S100000x128_1_0_0_1_n_n :=
  ⟨rfl, rfl, rfl, rfl, rfl, rfl⟩

/-- Entry (n, j) of the projected table: row n of the table against column j of the matrix. -/
theorem proj_apply (T : FVec Ideal ⟨2, ![100000, 128]⟩ .f32) (W : FVec Ideal ⟨2, ![128, 128]⟩ .f32) (n : Fin 100000) (j : Fin 128) :
    proj (F := Ideal) T W (ix2 n j) = ∑ k : Fin 128, T (ix2 n k) * W (ix2 k j) := by
  unfold proj
  exact dotGeneral_apply plain_table rfl rfl none .single T W n j

/-- Entry (r, j) of a block's product with the matrix, both narrowed to 16 bits and accumulated into zero: row r of the
    block against column j of the matrix. -/
theorem blockProduct_apply (A : FVec Ideal S5000x128 .f32) (W : Vec Ideal S128x128 .f32) (r : Fin 5000) (j : Fin 128) :
    matmul dot_S5000x128_S128x128_S5000x128_1_0_0_1_n_n none (truncf .bf16 A bitsLt_bf16_f32)
        (truncf .bf16 W bitsLt_bf16_f32) (constant S5000x128 .f32 0x00000000#32) (ix2 r j)
      = ∑ k : Fin 128, A (ix2 r k) * W (ix2 k j) :=
  matmul_zero_apply plain_block rfl rfl none _ _ r j

/-- A block-level result P and the whole-table product (T · W) agree at a pair of indices (y in the block, i in the
    table) when P's entries are the sums Σ_k a(r, k) · W(k, j), row y₀ of a is row i₀ of T, and y and i name the same
    column. -/
theorem product_point (P a : S5000x128.Idx → EReal) (T : FVec Ideal ⟨2, ![100000, 128]⟩ .f32) (W : FVec Ideal ⟨2, ![128, 128]⟩ .f32)
    (hP : ∀ (r : Fin 5000) (j : Fin 128), P (ix2 r j) = ∑ k : Fin 128, a (ix2 r k) * W (ix2 k j))
    (y : S5000x128.Idx) (i : S100000x128.Idx)
    (hrow : ∀ k : Fin 128, a (ix2 ⟨(y 0).val, idx2_lt0 y⟩ k) = T (ix2 ⟨(i 0).val, idx2_lt0 i⟩ k))
    (hcol : (i 1).val = (y 1).val) : P y = proj (F := Ideal) T W i := by
  obtain ⟨r, j, rfl⟩ : ∃ (r : Fin 5000) (j : Fin 128), y = ix2 r j := ⟨y 0, y 1, eq_ix2 y⟩
  obtain ⟨n, j', rfl⟩ : ∃ (n : Fin 100000) (j' : Fin 128), i = ix2 n j' := ⟨i 0, i 1, eq_ix2 i⟩
  obtain rfl : j' = j := Fin.ext hcol
  rw [hP, proj_apply]
  exact Finset.sum_congr rfl fun k _ => congrArg (· * W (ix2 k j')) (hrow k)

/-! ## The pointwise maps, one extended real at a time -/

/-- log(1 + e^x) in the overflow-free form max(x, 0) + log(1 + e^{-|x|}). -/
def softplusAt (x : EReal) : EReal := max x 0 + Ideal.log1p (Ideal.exp (-(max x (-x))))

/-- The kernel's form of it: the guard x - 0 ≠ x - 0 never holds, and 0 - |x - 0| is -|x|. -/
theorem softplus_device (x : EReal) :
    Scalar.select (Ideal.cmp .one (x - Ideal.ofBits .f32 0x00000000#32) (x - Ideal.ofBits .f32 0x00000000#32))
      (x + Ideal.ofBits .f32 0x00000000#32)
      (max x (Ideal.ofBits .f32 0x00000000#32) + Ideal.log1p (Ideal.exp (Ideal.ofBits .f32 0x00000000#32
        - max (x - Ideal.ofBits .f32 0x00000000#32) (-(x - Ideal.ofBits .f32 0x00000000#32))))) = softplusAt x := by
  rw [Ideal.ofBits_zero_f32]
  have hc : Ideal.cmp .one (x - 0) (x - 0) = 0#1 := by simp [Ideal.cmp]
  rw [hc, select_zero, sub_zero, zero_sub]
  rfl

/-- The host's form of it: the same guard as an unordered comparison, and a negation in place of 0 - |x - 0|. -/
theorem softplus_host (x : EReal) :
    Scalar.select (Ideal.cmp .une (x - Ideal.ofBits .f32 0x00000000#32) (x - Ideal.ofBits .f32 0x00000000#32))
      (x + Ideal.ofBits .f32 0x00000000#32)
      (max x (Ideal.ofBits .f32 0x00000000#32) + Ideal.log1p (Ideal.exp
        (-(max (x - Ideal.ofBits .f32 0x00000000#32) (-(x - Ideal.ofBits .f32 0x00000000#32)))))) = softplusAt x := by
  rw [Ideal.ofBits_zero_f32]
  have hc : Ideal.cmp .une (x - 0) (x - 0) = 0#1 := by simp [Ideal.cmp]
  rw [hc, select_zero, sub_zero]
  rfl

/-- The softplus stage, entry by entry. -/
theorem softplus_eq (X : FVec Ideal ⟨2, ![100000, 128]⟩ .f32) : softplus (F := Ideal) X = fun i => softplusAt (X i) :=
  funext fun i => softplus_host (X i)

/-- The centre (hi + lo)/2 of the interval [C - R, C + R] clipped at zero, hi = max(C + R, 0), lo = max(C - R, 0). -/
def centreAt (C R : EReal) : EReal :=
  Ideal.ofBits .f32 0x3F000000#32 * (max (C + R) (Ideal.ofBits .f32 0x00000000#32) + max (C - R) (Ideal.ofBits .f32 0x00000000#32))

/-- Its radius (hi - lo)/2. -/
def radiusAt (C R : EReal) : EReal :=
  Ideal.ofBits .f32 0x3F000000#32 * (max (C + R) (Ideal.ofBits .f32 0x00000000#32) - max (C - R) (Ideal.ofBits .f32 0x00000000#32))

/-- The centre stage, entry by entry. -/
theorem centre_eq (C R : FVec Ideal ⟨2, ![100000, 128]⟩ .f32) : centre (F := Ideal) C R = fun i => centreAt (C i) (R i) := rfl

/-- The radius stage, entry by entry. -/
theorem radius_eq (C R : FVec Ideal ⟨2, ![100000, 128]⟩ .f32) : radius (F := Ideal) C R = fun i => radiusAt (C i) (R i) := rfl

/-! ## What the body stores, at an entry -/

/-- First layer, centres: the block times the matrix. -/
theorem layer1_centre_entry (x0 : Vec Ideal S5000x128 .f32) (x2 : Vec Ideal S128x128 .f32) (r : Fin 5000) (j : Fin 128) :
    k0_pay1 (F := Ideal) x0 x2 (ix2 r j) = ∑ k : Fin 128, x0 (ix2 r k) * x2 (ix2 k j) := by
  unfold k0_pay1
  simp only [shapeCast_self]
  exact blockProduct_apply x0 x2 r j

/-- First layer, radii: the softplus of the block times the matrix. -/
theorem layer1_radius_entry (x1 : Vec Ideal S5000x128 .f32) (x3 : Vec Ideal S128x128 .f32) (r : Fin 5000) (j : Fin 128) :
    k0_pay2 (F := Ideal) x1 x3 (ix2 r j) = ∑ k : Fin 128, (fun y => softplusAt (x1 y)) (ix2 r k) * x3 (ix2 k j) := by
  unfold k0_pay2
  simp only [shapeCast_self]
  refine (blockProduct_apply _ x3 r j).trans ?_
  exact Finset.sum_congr rfl fun k _ => congrArg (· * x3 (ix2 k j)) (softplus_device (x1 (ix2 r k)))

/-- Second layer, centres: the clipped interval's centre times the matrix. -/
theorem layer2_centre_entry (x0 x1 : Vec Ideal S5000x128 .f32) (x2 : Vec Ideal S128x128 .f32) (r : Fin 5000) (j : Fin 128) :
    k1_pay5 (F := Ideal) x0 x1 x2 (ix2 r j) = ∑ k : Fin 128, (fun y => centreAt (x0 y) (x1 y)) (ix2 r k) * x2 (ix2 k j) := by
  unfold k1_pay5 k1_pay4 k1_pay3 k1_pay2 k1_pay1
  simp only [shapeCast_self]
  refine (blockProduct_apply _ x2 r j).trans ?_
  exact Finset.sum_congr rfl fun k _ => rfl

/-- Second layer, radii: the clipped interval's radius times the matrix. -/
theorem layer2_radius_entry (x0 x1 : Vec Ideal S5000x128 .f32) (x3 : Vec Ideal S128x128 .f32) (r : Fin 5000) (j : Fin 128) :
    k1_pay6 (F := Ideal) x0 x1 x3 (ix2 r j) = ∑ k : Fin 128, (fun y => radiusAt (x0 y) (x1 y)) (ix2 r k) * x3 (ix2 k j) := by
  unfold k1_pay6 k1_pay4 k1_pay3 k1_pay2 k1_pay1
  simp only [shapeCast_self]
  refine (blockProduct_apply _ x3 r j).trans ?_
  exact Finset.sum_congr rfl fun k _ => rfl

variable (V : (c : Dev nD) → (b : Ref sig .tc) → Buf (Elt Ideal) ((c : Thread nD τ).loc b))

/-- A block's load and store rectangles start at (0, 0). -/
theorem zero_offsets : (![0, 0] : Fin 2 → Nat) = fun _ => 0 := funext fun a => by fin_cases a <;> rfl

/-! ## Region 0: where the blocks sit -/

/-- The block indices of region 0's six windows at point t: the four table windows sit at block (t, 0), the two
    matrices at block (0, 0). Decided over the 20 points. -/
theorem blockIdx0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = t.val ∧ win0_4.index t (1 : Fin 2) = 0
  ∧ win0_5.index t (0 : Fin 2) = t.val ∧ win0_5.index t (1 : Fin 2) = 0 :=
  (by decide +kernel : ∀ t : Fin grid0.N, _)

/-- Row x₀ of the first table window's block at point t is row 5000 t + x₀ of its table. -/
theorem tableBlock0_0 (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg5 : S100000x128.Idx → Elt Ideal .f32) k := by
  obtain ⟨e0, e1, -⟩ := blockIdx0 t
  unfold iblk0
  rw [View.read_apply]
  show V c main_arg5 _ = V c main_arg5 _
  congr 1
  funext a; apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The same for the second table window. -/
theorem tableBlock0_1 (c : Dev nD) (t : Fin cfg0.N) (x : S5000x128.Idx) (k : S100000x128.Idx)
    (hk0 : (k 0).val = 5000 * t.val + (x 0).val) (hk1 : (k 1).val = (x 1).val) :
    (iblk0 V c 1 t : Vec Ideal S5000x128 .f32) x = (V c main_arg6 : S100000x128.Idx → Elt Ideal .f32) k := by
  obtain ⟨-, -, e2, e3, -⟩ := blockIdx0 t
  unfold iblk0
  rw [View.read_apply]
  show V c main_arg6 _ = V c main_arg6 _
  congr 1
  funext a; apply Fin.ext
  match a with
  | ⟨0, _⟩ => show win0_1.index t 0 * 5000 + 1 * (x 0).val = (k 0).val; rw [e2, hk0]; omega
  | ⟨1, _⟩ => show win0_1.index t 1 * 128 + 1 * (x 1).val = (k 1).val; rw [e3, hk1]; omega

/-- The first matrix window's block is the whole matrix at every point. -/
theorem matrix0_2 (c : Dev nD) (t : Fin cfg0.N) :
    (iblk0 V c 2 t : Vec Ideal S128x128 .f32) = (V c main_v0 : S128x128.Idx → Elt Ideal .f32) := by
  obtain ⟨-, -, -, -, e4, e5, -⟩ := blockIdx0 t
  funext x
  unfold iblk0
  rw [View.read_apply]
  show V c main_v0 _ = V c main_v0 _
  congr 1
  funext a; apply Fin.ext
  match a with
  | ⟨0, _⟩ => show win0_2.index t 0 * 128 + 1 * (x 0).val = (x 0).val; rw [e4]; omega
  | ⟨1, _⟩ => show win0_2.index t 1 * 128 + 1 * (x 1).val = (x 1).val; rw [e5]; omega

/-- So is the second matrix window's. -/
theorem matrix0_3 (c : Dev nD) (t : Fin cfg0.N) :
    (iblk0 V c 3 t : Vec Ideal S128x128 .f32) = (V c main_v2 : S128x128.Idx → Elt Ideal .f32) := by
  obtain ⟨-, -, -, -, -, -, e6, e7, -⟩ := blockIdx0 t
  funext x
  unfold iblk0
  rw [View.read_apply]
  show V c main_v2 _ = V c main_v2 _
  congr 1
  funext a; apply Fin.ext
  match a with
  | ⟨0, _⟩ => show win0_3.index t 0 * 128 + 1 * (x 0).val = (x 0).val; rw [e6]; omega
  | ⟨1, _⟩ => show win0_3.index t 1 * 128 + 1 * (x 1).val = (x 1).val; rw [e7]; omega

/-- An index of the first output table is in point t's block iff each coordinate is in the block's range. -/
theorem mem_outBlock0_4 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v6_0).slice (win0_4.rect t)).set ↔ _
  rw [View.set_slice_whole, Rect.mem_set_unit]
  exact Iff.rfl

/-- The same for the second output table. -/
theorem mem_outBlock0_5 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v6_1).slice (win0_5.rect t)).set ↔ _
  rw [View.set_slice_whole, Rect.mem_set_unit]
  exact Iff.rfl

/-- Row r of the first output table is written by point r / 5000: the 20 blocks of 5000 rows tile the table. -/
theorem outBlocks_cover0_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, e8, e9, -⟩ := blockIdx0 ⟨(i 0).val / 5000, ht⟩
  refine ⟨⟨(i 0).val / 5000, ht⟩, flush0_4 _, ?_⟩
  rw [mem_outBlock0_4]
  intro a
  match a with
  | ⟨0, _⟩ =>
    show win0_4.index ⟨(i 0).val / 5000, ht⟩ 0 * 5000 ≤ (i 0).val
      ∧ (i 0).val < win0_4.index ⟨(i 0).val / 5000, ht⟩ 0 * 5000 + 5000
    rw [e8]
    show (i 0).val / 5000 * 5000 ≤ (i 0).val ∧ (i 0).val < (i 0).val / 5000 * 5000 + 5000
    omega
  | ⟨1, _⟩ =>
    show win0_4.index ⟨(i 0).val / 5000, ht⟩ 1 * 128 ≤ (i 1).val
      ∧ (i 1).val < win0_4.index ⟨(i 0).val / 5000, ht⟩ 1 * 128 + 128
    rw [e9]
    omega

/-- The same for the second output table. -/
theorem outBlocks_cover0_5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e10, e11⟩ := blockIdx0 ⟨(i 0).val / 5000, ht⟩
  refine ⟨⟨(i 0).val / 5000, ht⟩, flush0_5 _, ?_⟩
  rw [mem_outBlock0_5]
  intro a
  match a with
  | ⟨0, _⟩ =>
    show win0_5.index ⟨(i 0).val / 5000, ht⟩ 0 * 5000 ≤ (i 0).val
      ∧ (i 0).val < win0_5.index ⟨(i 0).val / 5000, ht⟩ 0 * 5000 + 5000
    rw [e10]
    show (i 0).val / 5000 * 5000 ≤ (i 0).val ∧ (i 0).val < (i 0).val / 5000 * 5000 + 5000
    omega
  | ⟨1, _⟩ =>
    show win0_5.index ⟨(i 0).val / 5000, ht⟩ 1 * 128 ≤ (i 1).val
      ∧ (i 1).val < win0_5.index ⟨(i 0).val / 5000, ht⟩ 1 * 128 + 128
    rw [e11]
    omega

/-! ## Region 0: what each point writes back, and the whole tables after the region -/

/-- What point t writes back to the first output table is block t of (centre table) · (first matrix). -/
theorem written_layer1_centre (c : Dev nD) (t : Fin cfg0.N) :
    (dat0 (F := Ideal) V c).flushed 4 t = ((cfg0.win 4).blk t).view.read (Elt Ideal) (proj (F := Ideal) (V c main_arg5) (V c main_v0)) := by
  show (cfg0.win 4).cut (grid0.coords t) ((dat0 V c).after 4 t) = _
  rw [after0_4]
  unfold out0_4
  rw [View.canon_unit_zero zero_offsets]
  simp only [View.ld_unit_zero (S := S5000x128) zero_offsets, View.ld_unit_zero (S := S128x128) zero_offsets]
  rw [matrix0_2]
  obtain ⟨-, -, -, -, -, -, -, -, e8, e9, -⟩ := blockIdx0 t
  funext y
  refine product_point (k0_pay1 (iblk0 V c 0 t) (V c main_v0)) (iblk0 V c 0 t) (V c main_arg5) (V c main_v0)
    (layer1_centre_entry _ _) y (((cfg0.win 4).blk t).view.emb y) (fun k => ?_) ?_
  · have h0 : win0_4.index t 0 * 5000 + 1 * (y 0).val = 5000 * t.val + (y 0).val := by rw [e8]; omega
    exact tableBlock0_0 V c t _ _ h0 rfl
  · show win0_4.index t 1 * 128 + 1 * (y 1).val = (y 1).val
    rw [e9]; omega

/-- What point t writes back to the second output table is block t of softplus(radius table) · (second matrix). -/
theorem written_layer1_radius (c : Dev nD) (t : Fin cfg0.N) :
    (dat0 (F := Ideal) V c).flushed 5 t = ((cfg0.win 5).blk t).view.read (Elt Ideal) (proj (F := Ideal) (softplus (F := Ideal) (V c main_arg6)) (V c main_v2)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets]
  rw [matrix0_3, softplus_eq]
  obtain ⟨-, -, -, -, -, -, -, -, -, -, e10, e11⟩ := blockIdx0 t
  funext y
  refine product_point (k0_pay2 (iblk0 V c 1 t) (V c main_v2)) (fun y => softplusAt (iblk0 V c 1 t y)) (fun i => softplusAt (V c main_arg6 i)) (V c main_v2)
    (layer1_radius_entry _ _) y (((cfg0.win 5).blk t).view.emb y) (fun k => ?_) ?_
  · have h0 : win0_5.index t 0 * 5000 + 1 * (y 0).val = 5000 * t.val + (y 0).val := by rw [e10]; omega
    exact congrArg softplusAt (tableBlock0_1 V c t _ _ h0 rfl)
  · show win0_5.index t 1 * 128 + 1 * (y 1).val = (y 1).val
    rw [e11]; omega

/-- After region 0 its first output table holds the centre table times the first matrix. -/
theorem layer1_centre (c : Dev nD) : (dat0 (F := Ideal) V c).arrAt 4 cfg0.N = proj (F := Ideal) (V c main_arg5) (V c main_v0) :=
  (dat0 V c).arrAt_eq_of_cover 4 _ (fun t _ => written_layer1_centre V c t) outBlocks_cover0_4

/-- After region 0 its second output table holds the softplus of the radius table times the second matrix. -/
theorem layer1_radius (c : Dev nD) : (dat0 (F := Ideal) V c).arrAt 5 cfg0.N = proj (F := Ideal) (softplus (F := Ideal) (V c main_arg6)) (V c main_v2) :=
  (dat0 V c).arrAt_eq_of_cover 5 _ (fun t _ => written_layer1_radius V c t) outBlocks_cover0_5

/-! ## Region 1: where the blocks sit -/

/-- The block indices of region 1's six windows at point t: the four table windows sit at block (t, 0), the two
    matrices at block (0, 0). Decided over the 20 points. -/
theorem blockIdx1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = t.val ∧ win1_4.index t (1 : Fin 2) = 0
  ∧ win1_5.index t (0 : Fin 2) = t.val ∧ win1_5.index t (1 : Fin 2) = 0 :=
  (by decide +kernel : ∀ t : Fin grid1.N, _)

/-- Row x₀ of the first table window's block at point t is row 5000 t + x₀ of its table. -/
theorem tableBlock1_0 (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v30 : S100000x128.Idx → Elt Ideal .f32) k := by
  obtain ⟨e0, e1, -⟩ := blockIdx1 t
  unfold iblk1
  rw [View.read_apply]
  show V c main_v30 _ = V c main_v30 _
  congr 1
  funext a; apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The same for the second table window. -/
theorem tableBlock1_1 (c : Dev nD) (t : Fin cfg1.N) (x : S5000x128.Idx) (k : S100000x128.Idx)
    (hk0 : (k 0).val = 5000 * t.val + (x 0).val) (hk1 : (k 1).val = (x 1).val) :
    (iblk1 V c 1 t : Vec Ideal S5000x128 .f32) x = (V c main_v33 : S100000x128.Idx → Elt Ideal .f32) k := by
  obtain ⟨-, -, e2, e3, -⟩ := blockIdx1 t
  unfold iblk1
  rw [View.read_apply]
  show V c main_v33 _ = V c main_v33 _
  congr 1
  funext a; apply Fin.ext
  match a with
  | ⟨0, _⟩ => show win1_1.index t 0 * 5000 + 1 * (x 0).val = (k 0).val; rw [e2, hk0]; omega
  | ⟨1, _⟩ => show win1_1.index t 1 * 128 + 1 * (x 1).val = (k 1).val; rw [e3, hk1]; omega

/-- The first matrix window's block is the whole matrix at every point. -/
theorem matrix1_2 (c : Dev nD) (t : Fin cfg1.N) :
    (iblk1 V c 2 t : Vec Ideal S128x128 .f32) = (V c main_v3 : S128x128.Idx → Elt Ideal .f32) := by
  obtain ⟨-, -, -, -, e4, e5, -⟩ := blockIdx1 t
  funext x
  unfold iblk1
  rw [View.read_apply]
  show V c main_v3 _ = V c main_v3 _
  congr 1
  funext a; apply Fin.ext
  match a with
  | ⟨0, _⟩ => show win1_2.index t 0 * 128 + 1 * (x 0).val = (x 0).val; rw [e4]; omega
  | ⟨1, _⟩ => show win1_2.index t 1 * 128 + 1 * (x 1).val = (x 1).val; rw [e5]; omega

/-- So is the second matrix window's. -/
theorem matrix1_3 (c : Dev nD) (t : Fin cfg1.N) :
    (iblk1 V c 3 t : Vec Ideal S128x128 .f32) = (V c main_v5 : S128x128.Idx → Elt Ideal .f32) := by
  obtain ⟨-, -, -, -, -, -, e6, e7, -⟩ := blockIdx1 t
  funext x
  unfold iblk1
  rw [View.read_apply]
  show V c main_v5 _ = V c main_v5 _
  congr 1
  funext a; apply Fin.ext
  match a with
  | ⟨0, _⟩ => show win1_3.index t 0 * 128 + 1 * (x 0).val = (x 0).val; rw [e6]; omega
  | ⟨1, _⟩ => show win1_3.index t 1 * 128 + 1 * (x 1).val = (x 1).val; rw [e7]; omega

/-- An index of the first output table is in point t's block iff each coordinate is in the block's range. -/
theorem mem_outBlock1_4 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v34_0).slice (win1_4.rect t)).set ↔ _
  rw [View.set_slice_whole, Rect.mem_set_unit]
  exact Iff.rfl

/-- The same for the second output table. -/
theorem mem_outBlock1_5 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v34_1).slice (win1_5.rect t)).set ↔ _
  rw [View.set_slice_whole, Rect.mem_set_unit]
  exact Iff.rfl

/-- Row r of the first output table is written by point r / 5000: the 20 blocks of 5000 rows tile the table. -/
theorem outBlocks_cover1_4 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, e8, e9, -⟩ := blockIdx1 ⟨(i 0).val / 5000, ht⟩
  refine ⟨⟨(i 0).val / 5000, ht⟩, flush1_4 _, ?_⟩
  rw [mem_outBlock1_4]
  intro a
  match a with
  | ⟨0, _⟩ =>
    show win1_4.index ⟨(i 0).val / 5000, ht⟩ 0 * 5000 ≤ (i 0).val
      ∧ (i 0).val < win1_4.index ⟨(i 0).val / 5000, ht⟩ 0 * 5000 + 5000
    rw [e8]
    show (i 0).val / 5000 * 5000 ≤ (i 0).val ∧ (i 0).val < (i 0).val / 5000 * 5000 + 5000
    omega
  | ⟨1, _⟩ =>
    show win1_4.index ⟨(i 0).val / 5000, ht⟩ 1 * 128 ≤ (i 1).val
      ∧ (i 1).val < win1_4.index ⟨(i 0).val / 5000, ht⟩ 1 * 128 + 128
    rw [e9]
    omega

/-- The same for the second output table. -/
theorem outBlocks_cover1_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, e10, e11⟩ := blockIdx1 ⟨(i 0).val / 5000, ht⟩
  refine ⟨⟨(i 0).val / 5000, ht⟩, flush1_5 _, ?_⟩
  rw [mem_outBlock1_5]
  intro a
  match a with
  | ⟨0, _⟩ =>
    show win1_5.index ⟨(i 0).val / 5000, ht⟩ 0 * 5000 ≤ (i 0).val
      ∧ (i 0).val < win1_5.index ⟨(i 0).val / 5000, ht⟩ 0 * 5000 + 5000
    rw [e10]
    show (i 0).val / 5000 * 5000 ≤ (i 0).val ∧ (i 0).val < (i 0).val / 5000 * 5000 + 5000
    omega
  | ⟨1, _⟩ =>
    show win1_5.index ⟨(i 0).val / 5000, ht⟩ 1 * 128 ≤ (i 1).val
      ∧ (i 1).val < win1_5.index ⟨(i 0).val / 5000, ht⟩ 1 * 128 + 128
    rw [e11]
    omega

/-! ## Region 1: what each point writes back, and the whole tables after the region -/

/-- What point t writes back to the first output table is block t of (clipped centres) · (first matrix). -/
theorem written_layer2_centre (c : Dev nD) (t : Fin cfg1.N) :
    (dat1 (F := Ideal) V c).flushed 4 t = ((cfg1.win 4).blk t).view.read (Elt Ideal) (proj (F := Ideal) (centre (F := Ideal) (V c main_v30) (V c main_v33)) (V c main_v3)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S128x128) zero_offsets]
  rw [matrix1_2, centre_eq]
  obtain ⟨-, -, -, -, -, -, -, -, e8, e9, -⟩ := blockIdx1 t
  funext y
  refine product_point (k1_pay5 (iblk1 V c 0 t) (iblk1 V c 1 t) (V c main_v3)) (fun y => centreAt (iblk1 V c 0 t y) (iblk1 V c 1 t y)) (fun i => centreAt (V c main_v30 i) (V c main_v33 i)) (V c main_v3)
    (layer2_centre_entry _ _ _) y (((cfg1.win 4).blk t).view.emb y) (fun k => ?_) ?_
  · have h0 : win1_4.index t 0 * 5000 + 1 * (y 0).val = 5000 * t.val + (y 0).val := by rw [e8]; omega
    exact congrArg₂ centreAt (tableBlock1_0 V c t _ _ h0 rfl) (tableBlock1_1 V c t _ _ h0 rfl)
  · show win1_4.index t 1 * 128 + 1 * (y 1).val = (y 1).val
    rw [e9]; omega

/-- What point t writes back to the second output table is block t of (clipped radii) · (second matrix). -/
theorem written_layer2_radius (c : Dev nD) (t : Fin cfg1.N) :
    (dat1 (F := Ideal) V c).flushed 5 t = ((cfg1.win 5).blk t).view.read (Elt Ideal) (proj (F := Ideal) (radius (F := Ideal) (V c main_v30) (V c main_v33)) (V c main_v5)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets]
  rw [matrix1_3, radius_eq]
  obtain ⟨-, -, -, -, -, -, -, -, -, -, e10, e11⟩ := blockIdx1 t
  funext y
  refine product_point (k1_pay6 (iblk1 V c 0 t) (iblk1 V c 1 t) (V c main_v5)) (fun y => radiusAt (iblk1 V c 0 t y) (iblk1 V c 1 t y)) (fun i => radiusAt (V c main_v30 i) (V c main_v33 i)) (V c main_v5)
    (layer2_radius_entry _ _ _) y (((cfg1.win 5).blk t).view.emb y) (fun k => ?_) ?_
  · have h0 : win1_5.index t 0 * 5000 + 1 * (y 0).val = 5000 * t.val + (y 0).val := by rw [e10]; omega
    exact congrArg₂ radiusAt (tableBlock1_0 V c t _ _ h0 rfl) (tableBlock1_1 V c t _ _ h0 rfl)
  · show win1_5.index t 1 * 128 + 1 * (y 1).val = (y 1).val
    rw [e11]; omega

/-- After region 1 its first output table holds the clipped intervals' centres times the first matrix. -/
theorem layer2_centre (c : Dev nD) : (dat1 (F := Ideal) V c).arrAt 4 cfg1.N = proj (F := Ideal) (centre (F := Ideal) (V c main_v30) (V c main_v33)) (V c main_v3) :=
  (dat1 V c).arrAt_eq_of_cover 4 _ (fun t _ => written_layer2_centre V c t) outBlocks_cover1_4

/-- After region 1 its second output table holds the clipped intervals' radii times the second matrix. -/
theorem layer2_radius (c : Dev nD) : (dat1 (F := Ideal) V c).arrAt 5 cfg1.N = proj (F := Ideal) (radius (F := Ideal) (V c main_v30) (V c main_v33)) (V c main_v5) :=
  (dat1 V c).arrAt_eq_of_cover 5 _ (fun t _ => written_layer2_radius V c t) outBlocks_cover1_5

end Cert.KernelIdeal.Project

end
-- ==== Proof.RegionRelu.lean ====
/-
  The final interval ReLU (the third pallas_call), read as whole arrays.

  The region walks the 100000 × 128 tables C and R in 20 blocks of 5000 rows. At each block the body computes, entry by
  entry, lo = max(C - R, 0), hi = max(C + R, 0) and stores (hi + lo)/2 into the first output block and (hi - lo)/2 into
  the second. Every operation is pointwise, the input and output blocks of a grid point sit at the same rows, and the 20
  output blocks tile their array: so after the region the first output array is `Stages.centre C R` and the second
  `Stages.radius C R`, whatever the tables held when the region was entered.
-/
import proofs.«129168_j42064909697221_1_alg».proof.Proof.Gen.KernelIdeal.Frame
import proofs.«129168_j42064909697221_1_alg».proof.Proof.Stages
import Idealize.ShloMosaic.Lib.Pipeline.Value
import Idealize.ShloMosaic.Lib.ValueIdx

set_option maxRecDepth 16384

noncomputable section

namespace Cert.KernelIdeal.Relu

open Cert.KernelIdeal Cert.KernelIdeal.Gen Idealize.ShloMosaic Idealize.ShloMosaic.TcCoe Idealize.SL.Sem
open Idealize.ShloMosaic.Pipeline (Dat Cfg Window)
open Idealize.ShloMosaic.ValueIdx (mulf_apply addf_apply subf_apply maximumf_apply)

-- the tables as the region finds them
variable (V : (c : Dev nD) → (b : Ref sig .tc) → Buf (Elt Ideal) ((c : Thread nD τ).loc b))

/-! ## One entry -/

/-- One entry of the clipped interval's centre, from the entries `a` of C and `b` of R: (max(a + b, 0) + max(a - b, 0)) / 2. -/
def centreAt (a b : Ideal .f32) : Ideal .f32 :=
  Ideal.ofBits .f32 0x3F000000#32 * (max (a + b) (Ideal.ofBits .f32 0x00000000#32) + max (a - b) (Ideal.ofBits .f32 0x00000000#32))

/-- One entry of the clipped interval's radius: (max(a + b, 0) - max(a - b, 0)) / 2. -/
def radiusAt (a b : Ideal .f32) : Ideal .f32 :=
  Ideal.ofBits .f32 0x3F000000#32 * (max (a + b) (Ideal.ofBits .f32 0x00000000#32) - max (a - b) (Ideal.ofBits .f32 0x00000000#32))

/-- The table of zeros holds the zero word everywhere. -/
theorem zeros_apply (i : Cert.ReferenceIdeal.S100000x128.Idx) :
    Cert.ReferenceIdeal.Stages.zeros (F := Ideal) i = Ideal.ofBits .f32 0x00000000#32 := by
  unfold Cert.ReferenceIdeal.Stages.zeros
  exact broadcastInDim_apply _ _ _ i (fun a => a.elim0) (fun a => a.elim0)

/-- The table of halves holds the word of 1/2 everywhere. -/
theorem halves_apply (i : Cert.ReferenceIdeal.S100000x128.Idx) :
    Cert.ReferenceIdeal.Stages.halves (F := Ideal) i = Ideal.ofBits .f32 0x3F000000#32 := by
  unfold Cert.ReferenceIdeal.Stages.halves
  exact broadcastInDim_apply _ _ _ i (fun a => a.elim0) (fun a => a.elim0)

/-- The stage's centre, entry by entry. -/
theorem centre_apply (C R : Cert.ReferenceIdeal.Stages.Table Ideal) (i : Cert.ReferenceIdeal.S100000x128.Idx) :
    Cert.ReferenceIdeal.Stages.centre C R i = centreAt (C i) (R i) := by
  unfold Cert.ReferenceIdeal.Stages.centre Cert.ReferenceIdeal.Stages.hi Cert.ReferenceIdeal.Stages.lo centreAt
  rw [mulf_apply, addf_apply, maximumf_apply, maximumf_apply, addf_apply, subf_apply, zeros_apply, halves_apply]

/-- The stage's radius, entry by entry. -/
theorem radius_apply (C R : Cert.ReferenceIdeal.Stages.Table Ideal) (i : Cert.ReferenceIdeal.S100000x128.Idx) :
    Cert.ReferenceIdeal.Stages.radius C R i = radiusAt (C i) (R i) := by
  unfold Cert.ReferenceIdeal.Stages.radius Cert.ReferenceIdeal.Stages.hi Cert.ReferenceIdeal.Stages.lo radiusAt
  rw [mulf_apply, subf_apply, maximumf_apply, maximumf_apply, addf_apply, subf_apply, zeros_apply, halves_apply]

/-- What the body stores into the first output block, entry by entry: the casts to the same shape change nothing, and
    a scalar spread over the block is that scalar at every entry. -/
theorem stored_centre (x0 x1 : Vec Ideal S5000x128 .f32) (j : S5000x128.Idx) :
    k2_pay5 (F := Ideal) x0 x1 j = centreAt (x0 j) (x1 j) := by
  unfold k2_pay5 k2_pay4 k2_pay3 k2_pay1 k2_pay2 centreAt
  simp only [shapeCast_self]
  rfl

/-- What the body stores into the second output block, entry by entry. -/
theorem stored_radius (x0 x1 : Vec Ideal S5000x128 .f32) (j : S5000x128.Idx) :
    k2_pay6 (F := Ideal) x0 x1 j = radiusAt (x0 j) (x1 j) := by
  unfold k2_pay6 k2_pay4 k2_pay3 k2_pay1 k2_pay2 radiusAt
  simp only [shapeCast_self]
  rfl

/-! ## The blocks -/

theorem origin : (![0, 0] : Fin 2 → Nat) = fun _ => 0 := funext fun a => by fin_cases a <;> rfl

/-- At every grid point the four windows sit at the same block of rows, block column 0, and the row block is one of the 20. -/
theorem same_rows : ∀ t : Fin cfg2.N,
    win2_0.index t (0 : Fin 2) = win2_2.index t (0 : Fin 2) ∧ win2_0.index t (1 : Fin 2) = win2_2.index t (1 : Fin 2)
    ∧ win2_1.index t (0 : Fin 2) = win2_2.index t (0 : Fin 2) ∧ win2_1.index t (1 : Fin 2) = win2_2.index t (1 : Fin 2)
    ∧ win2_0.index t (0 : Fin 2) = win2_3.index t (0 : Fin 2) ∧ win2_0.index t (1 : Fin 2) = win2_3.index t (1 : Fin 2)
    ∧ win2_1.index t (0 : Fin 2) = win2_3.index t (0 : Fin 2) ∧ win2_1.index t (1 : Fin 2) = win2_3.index t (1 : Fin 2)
    ∧ win2_2.index t (0 : Fin 2) ≤ 19 ∧ win2_2.index t (1 : Fin 2) = 0 :=
  (by decide +kernel : ∀ t : Fin grid2.N, _)

/-- Every row block is some grid point's, for both outputs. -/
theorem every_block : ∀ q : Fin 20, ∃ t : Fin cfg2.N, win2_2.index t = ![q.val, 0] ∧ win2_3.index t = ![q.val, 0] :=
  (by decide +kernel : ∀ q : Fin 20, ∃ t : Fin grid2.N, win2_2.index t = ![q.val, 0] ∧ win2_3.index t = ![q.val, 0])

/-- The input blocks of a point are read at the rows its first output block is written to. -/
theorem rows_in0_out2 (t : Fin cfg2.N) (j : S5000x128.Idx) :
    ((cfg2.win 0).blk t).view.emb j = ((cfg2.win 2).blk t).view.emb j := by
  obtain ⟨e0, e1, -, -, -, -, -, -, -, -⟩ := same_rows t
  funext a; apply Fin.ext
  match a with
  | ⟨0, _⟩ => show win2_0.index t (0 : Fin 2) * 5000 + 1 * (j 0).val = win2_2.index t (0 : Fin 2) * 5000 + 1 * (j 0).val; omega
  | ⟨1, _⟩ => show win2_0.index t (1 : Fin 2) * 128 + 1 * (j 1).val = win2_2.index t (1 : Fin 2) * 128 + 1 * (j 1).val; omega

theorem rows_in1_out2 (t : Fin cfg2.N) (j : S5000x128.Idx) :
    ((cfg2.win 1).blk t).view.emb j = ((cfg2.win 2).blk t).view.emb j := by
  obtain ⟨-, -, e0, e1, -, -, -, -, -, -⟩ := same_rows t
  funext a; apply Fin.ext
  match a with
  | ⟨0, _⟩ => show win2_1.index t (0 : Fin 2) * 5000 + 1 * (j 0).val = win2_2.index t (0 : Fin 2) * 5000 + 1 * (j 0).val; omega
  | ⟨1, _⟩ => show win2_1.index t (1 : Fin 2) * 128 + 1 * (j 1).val = win2_2.index t (1 : Fin 2) * 128 + 1 * (j 1).val; omega

theorem rows_in0_out3 (t : Fin cfg2.N) (j : S5000x128.Idx) :
    ((cfg2.win 0).blk t).view.emb j = ((cfg2.win 3).blk t).view.emb j := by
  obtain ⟨-, -, -, -, e0, e1, -, -, -, -⟩ := same_rows t
  funext a; apply Fin.ext
  match a with
  | ⟨0, _⟩ => show win2_0.index t (0 : Fin 2) * 5000 + 1 * (j 0).val = win2_3.index t (0 : Fin 2) * 5000 + 1 * (j 0).val; omega
  | ⟨1, _⟩ => show win2_0.index t (1 : Fin 2) * 128 + 1 * (j 1).val = win2_3.index t (1 : Fin 2) * 128 + 1 * (j 1).val; omega

theorem rows_in1_out3 (t : Fin cfg2.N) (j : S5000x128.Idx) :
    ((cfg2.win 1).blk t).view.emb j = ((cfg2.win 3).blk t).view.emb j := by
  obtain ⟨-, -, -, -, -, -, e0, e1, -, -⟩ := same_rows t
  funext a; apply Fin.ext
  match a with
  | ⟨0, _⟩ => show win2_1.index t (0 : Fin 2) * 5000 + 1 * (j 0).val = win2_3.index t (0 : Fin 2) * 5000 + 1 * (j 0).val; omega
  | ⟨1, _⟩ => show win2_1.index t (1 : Fin 2) * 128 + 1 * (j 1).val = win2_3.index t (1 : Fin 2) * 128 + 1 * (j 1).val; omega

/-- What point `t` writes back to the first output is block `t` of the centre of the tables as the region finds them. -/
theorem written_centre (c : Dev nD) (t : Fin cfg2.N) :
    (dat2 (F := Ideal) V c).flushed 2 t
      = ((cfg2.win 2).blk t).view.read (Elt Ideal) (Cert.ReferenceIdeal.Stages.centre (V c main_v58) (V c main_v61)) := by
  show (cfg2.win 2).cut (grid2.coords t) ((dat2 (F := Ideal) V c).after 2 t) = _
  rw [after2_2]
  unfold out2_2
  rw [View.canon_unit_zero origin]
  simp only [View.ld_unit_zero (S := S5000x128) origin]
  funext j
  show k2_pay5 (F := Ideal) (iblk2 V c 0 t) (iblk2 V c 1 t) j
      = Cert.ReferenceIdeal.Stages.centre (V c main_v58) (V c main_v61) (((cfg2.win 2).blk t).view.emb j)
  rw [centre_apply]
  refine (stored_centre _ _ j).trans ?_
  show centreAt (V c main_v58 (((cfg2.win 0).blk t).view.emb j)) (V c main_v61 (((cfg2.win 1).blk t).view.emb j)) = _
  rw [rows_in0_out2, rows_in1_out2]

/-- What point `t` writes back to the second output is block `t` of the radius. -/
theorem written_radius (c : Dev nD) (t : Fin cfg2.N) :
    (dat2 (F := Ideal) V c).flushed 3 t
      = ((cfg2.win 3).blk t).view.read (Elt Ideal) (Cert.ReferenceIdeal.Stages.radius (V c main_v58) (V c main_v61)) := by
  show (cfg2.win 3).cut (grid2.coords t) ((dat2 (F := Ideal) V c).after 3 t) = _
  rw [after2_3]
  unfold out2_3
  rw [View.canon_unit_zero origin]
  simp only [View.ld_unit_zero (S := S5000x128) origin]
  funext j
  show k2_pay6 (F := Ideal) (iblk2 V c 0 t) (iblk2 V c 1 t) j
      = Cert.ReferenceIdeal.Stages.radius (V c main_v58) (V c main_v61) (((cfg2.win 3).blk t).view.emb j)
  rw [radius_apply]
  refine (stored_radius _ _ j).trans ?_
  show radiusAt (V c main_v58 (((cfg2.win 0).blk t).view.emb j)) (V c main_v61 (((cfg2.win 1).blk t).view.emb j)) = _
  rw [rows_in0_out3, rows_in1_out3]

/-! ## The 20 blocks tile the table -/

/-- An entry is in point `t`'s block of the first output iff its row and column are in the block's ranges. -/
theorem in_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v62_0).slice (win2_2.rect t)).set ↔ _
  rw [View.set_slice_whole, Rect.mem_set_unit]
  exact Iff.rfl

theorem in_block3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v62_1).slice (win2_3.rect t)).set ↔ _
  rw [View.set_slice_whole, Rect.mem_set_unit]
  exact Iff.rfl

/-- Row r lies in the block of the point whose row block is r / 5000. -/
theorem tiled2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht, -⟩ := every_block ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [in_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

theorem tiled3 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, -, ht⟩ := every_block ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [in_block3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-! ## The whole arrays -/

/-- After the region the first output array is the centre of the tables as the region found them. -/
theorem relu_centre (c : Dev nD) :
    (dat2 (F := Ideal) V c).arrAt 2 cfg2.N = Cert.ReferenceIdeal.Stages.centre (V c main_v58) (V c main_v61) :=
  (dat2 (F := Ideal) V c).arrAt_eq_of_cover 2 _ (fun t _ => written_centre V c t) tiled2

/-- After the region the second output array is the radius. -/
theorem relu_radius (c : Dev nD) :
    (dat2 (F := Ideal) V c).arrAt 3 cfg2.N = Cert.ReferenceIdeal.Stages.radius (V c main_v58) (V c main_v61) :=
  (dat2 (F := Ideal) V c).arrAt_eq_of_cover 3 _ (fun t _ => written_radius V c t) tiled3

end Cert.KernelIdeal.Relu

end
-- ==== Proof.LibRows.lean ====
/-
  Row-wise reductions and the keepdims layout steps of a kernel body, read at an entry on the extended reals: a lane
  sum and a lane maximum of an [R, D] array at row p are the sum and the maximum (folded from the accumulator) over the
  row's D entries; a vector of length a cast to a column [a, 1] keeps its entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.Rows

open Idealize.ShloMosaic Idealize.ShloMosaic.ValueIdx
open scoped BigOperators

/-- An `[a]` array cast to a column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The lane sum of row `p`: the sum of the row's entries. -/
theorem laneSum_apply {R D : ℕ} (v : FVec Ideal ⟨2, ![R, D]⟩ .f32) (hred : (⟨2, ![R, D]⟩ : Shape).Reduces [1] ⟨1, ![R]⟩)
    (p : Fin R) :
    multiReduction .add [1] ⟨1, ![R]⟩ v 0x00000000#32 hred (.inl rfl) rfl (ix1 p) = ∑ q : Fin D, v (ix2 p q) :=
  (Ideal.multiReduction_add_single v _ hred _ _ (ix1 p)).trans
    (Finset.sum_congr rfl fun q _ => congrArg v (funext fun a => Fin.ext (by
      match a with
      | ⟨0, _⟩ => rfl
      | ⟨1, _⟩ => rfl)))

/-- The lane maximum of row `p`: the maximum of the row's entries, folded from −∞. -/
theorem laneMax_apply {R D : ℕ} (v : FVec Ideal ⟨2, ![R, D]⟩ .f32) (hred : (⟨2, ![R, D]⟩ : Shape).Reduces [1] ⟨1, ![R]⟩)
    (p : Fin R) :
    multiReduction .maximumf [1] ⟨1, ![R]⟩ v 0xFF800000#32 hred (.inl rfl) rfl (ix1 p)
      = (Finset.univ : Finset (Fin D)).fold max (Ideal.ofBits .f32 0xFF800000#32) (fun q => v (ix2 p q)) :=
  (Ideal.multiReduction_maximumf_single v _ hred _ _ (ix1 p)).trans
    (congrArg (Finset.fold max _ · Finset.univ) (funext fun q => congrArg v (funext fun a => Fin.ext (by
      match a with
      | ⟨0, _⟩ => rfl
      | ⟨1, _⟩ => rfl))))

end Cert.Lib.Rows

end
-- ==== Proof.LibLastAxis.lean ====
/-
  Arrays of rank 3 whose last axis carries the coordinates, read at an entry.

  * a matrix `[a, b]` given a middle axis of extent one, `[a, 1, b]`, reads at (i, u, j) the matrix at (i, j): the
    row-major position of (i, u, j) with u = 0 is that of (i, j);
  * an array `[a, 1, b]` repeated along its middle axis to `[a, k, b]` reads at (i, n, j) the operand at (i, 0, j),
    whatever n is;
  * on the extended reals the sum over the last axis of an `[A, B, D]` array, started from zero, is at (p, k) the sum
    over q < D of the entries (p, k, q): no order of summation and no rounding is left of it.

  Together the first two say that a row of relation coordinates placed beside every one of k rows of a block is read, at
  (i, n, j), as the row i at j. All extents are arbitrary.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.LastAxis

open Idealize.ShloMosaic Idealize.ShloMosaic.ValueIdx
open scoped BigOperators

/-- An `[a, b]` array cast to `[a, 1, b]` reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, k, b]` reads, at `(i, n, j)`, the operand at `(i, 0, j)`. -/
theorem broadcastTo_a1b_akb_apply {α : Type} {a k b : ℕ} (v : (⟨3, ![a, 1, b]⟩ : Shape).Idx → α)
    (h : (⟨3, ![a, 1, b]⟩ : Shape).Broadcasts ⟨3, ![a, k, b]⟩) (i : Fin a) (n : Fin k) (j : Fin b) :
    broadcastTo ⟨3, ![a, k, b]⟩ v h (ix3 i n j) = v (ix3 i (0 : Fin 1) j) := by
  refine broadcastTo_apply v h (ix3 i n j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- The lane sum over the last axis of an `[A, B, D]` array at `(p, k)`: the sum of that row's entries. -/
theorem laneSum3_apply {A B D : ℕ} (v : FVec Ideal ⟨3, ![A, B, D]⟩ .f32)
    (hred : (⟨3, ![A, B, D]⟩ : Shape).Reduces [2] ⟨2, ![A, B]⟩) (p : Fin A) (k : Fin B) :
    multiReduction .add [2] ⟨2, ![A, B]⟩ v 0x00000000#32 hred (.inl rfl) rfl (ix2 p k) = ∑ q : Fin D, v (ix3 p k q) :=
  (Ideal.multiReduction_add_single v _ hred _ _ (ix2 p k)).trans
    (Finset.sum_congr rfl fun q _ => congrArg v (funext fun a => Fin.ext (by
      match a with
      | ⟨0, _⟩ => rfl
      | ⟨1, _⟩ => rfl
      | ⟨2, _⟩ => rfl)))

end Cert.Lib.LastAxis

end
-- ==== Proof.RegionScore.lean ====
/-
  The two triplet-score calls, from blocks to whole arrays. A triplet's score is
  Σ_d |hr + rr + tr|(d) − Σ_d |hc + rc − tc|(d) over the 128 coordinates of its head, relation and tail intervals
  (centres hc, rc, tc; radii hr, rr, tr). The positive-score call walks the 4096 triplets in 4 blocks of 1024 rows;
  the negative-score call walks them in 64 blocks of 64 rows, each row carrying 64 corrupted triplets that share
  the row's relation interval. Both are read here entry by entry: the value a body stores at an entry of its block
  is the score of the rows its loaded blocks hold there; a block's row p at point t is row t · (rows per block) + p
  of the array; the blocks tile the array; so after the call the array holds the score stage of the input arrays.
-/
import proofs.«129168_j42064909697221_1_alg».proof.Proof.Gen.KernelIdeal.Frame
import proofs.«129168_j42064909697221_1_alg».proof.Proof.Stages
import proofs.«129168_j42064909697221_1_alg».proof.Proof.LibRows
import proofs.«129168_j42064909697221_1_alg».proof.Proof.LibLastAxis
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Score

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators
open Cert.Lib.LastAxis

open Cert.ReferenceIdeal.Stages (posScore negScore alongNegatives Rows Cube)

/-! ## One triplet's score from its six rows -/

/-- The score of one triplet from the six rows of 128 coordinates of its embeddings:
    Σ_d |hr + rr + tr|(d) − Σ_d |hc + rc − tc|(d). -/
def score (hc hr tc tr rc rr : Fin 128 → EReal) : EReal :=
  (∑ q : Fin 128, FloatOps.absf (F := Ideal) (φ := .f32) ((hr q + rr q) + tr q))
    - ∑ q : Fin 128, FloatOps.absf (F := Ideal) (φ := .f32) ((hc q + rc q) - tc q)

/-! ## Layout steps and lane sums of the corrupted-triplet block, read at an entry -/

/-- A block of 64 relation rows repeated along the 64 corrupted triplets reads, at `(b, k, d)`, row `b` at `d`. -/
theorem alongBlock_apply (r : Vec Ideal S64x128 .f32) (b k : Fin 64) (q : Fin 128) :
    broadcastTo S64x64x128 (shapeCast S64x1x128 r shapeCasts_S64x128_S64x1x128) broadcasts_S64x1x128_S64x64x128 (ix3 b k q)
      = r (ix2 b q) :=
  (broadcastTo_a1b_akb_apply _ _ b k q).trans (shapeCast_ab_a1b_apply r _ b 0 q)

/-! ## The two bodies' stored values at an entry -/

/-- Entry `p` of what the positive-score body stores is the score of row `p` of its six loaded blocks. -/
theorem pos_payload (hc rc hr rr tc tr : Vec Ideal S1024x128 .f32) (p : Fin 1024) :
    k3_pay1 (F := Ideal) hc rc hr rr tc tr (ix1 p)
      = score (fun q => hc (ix2 p q)) (fun q => hr (ix2 p q)) (fun q => tc (ix2 p q))
          (fun q => tr (ix2 p q)) (fun q => rc (ix2 p q)) (fun q => rr (ix2 p q)) := by
  unfold k3_pay1
  simp only [shapeCast_self]
  exact congrArg₂ (fun a b : EReal => a - b) (Cert.Lib.Rows.laneSum_apply _ _ p) (Cert.Lib.Rows.laneSum_apply _ _ p)

/-- Entry `(b, k)` of what the negative-score body stores is the score of row `(b, k)` of its four loaded
    entity blocks and row `b` of its two loaded relation blocks. -/
theorem neg_payload (rc rr : Vec Ideal S64x128 .f32) (hc hr tc tr : Vec Ideal S64x64x128 .f32) (b k : Fin 64) :
    k4_pay1 (F := Ideal) rc rr hc hr tc tr (ix2 b k)
      = score (fun q => hc (ix3 b k q)) (fun q => hr (ix3 b k q)) (fun q => tc (ix3 b k q))
          (fun q => tr (ix3 b k q)) (fun q => rc (ix2 b q)) (fun q => rr (ix2 b q)) := by
  unfold k4_pay1
  simp only [shapeCast_self]
  refine (congrArg₂ (fun a b : EReal => a - b) (laneSum3_apply _ _ b k) (laneSum3_apply _ _ b k)).trans ?_
  refine congrArg₂ (fun a b : EReal => a - b) (Finset.sum_congr rfl fun q _ => ?_) (Finset.sum_congr rfl fun q _ => ?_)
  · show FloatOps.absf (F := Ideal) (φ := .f32) ((hr (ix3 b k q) + broadcastTo S64x64x128 (shapeCast S64x1x128 rr shapeCasts_S64x128_S64x1x128) broadcasts_S64x1x128_S64x64x128 (ix3 b k q)) + tr (ix3 b k q)) = _
    rw [alongBlock_apply]
  · show FloatOps.absf (F := Ideal) (φ := .f32) ((hc (ix3 b k q) + broadcastTo S64x64x128 (shapeCast S64x1x128 rc shapeCasts_S64x128_S64x1x128) broadcasts_S64x1x128_S64x64x128 (ix3 b k q)) - tc (ix3 b k q)) = _
    rw [alongBlock_apply]

/-! ## The two score stages at an entry -/

/-- The host's sum over the 128 coordinates of a `[4096, 128]` array from the zero word, at row `r`. -/
theorem rowSum_host (X : Rows Ideal) (r : Fin 4096) :
    Host.reduceAdd (F := Ideal) X (constant (F := Ideal) Cert.ReferenceIdeal.S_ .f32 0x00000000#32)
      Cert.ReferenceIdeal.Gen.reducesTo_S4096x128_S4096_d1 Cert.ReferenceIdeal.Gen.h_S_ (ix1 r) = ∑ q : Fin 128, X (ix2 r q) := by
  simp only [Host.reduceAdd, Ideal.hostReduceAdd_def]
  rw [Ideal.hostReduceAdd_single Cert.ReferenceIdeal.Gen.reducesTo_S4096x128_S4096_d1 (by decide)]
  rw [constant_apply, Ideal.ofBits_zero_f32, zero_add]
  exact Finset.sum_congr rfl fun k _ => congrArg X (funext fun a => Fin.ext (by match a with | ⟨0, _⟩ => rfl | ⟨1, _⟩ => rfl))

/-- The host's sum over the 128 coordinates of a `[4096, 64, 128]` array from the zero word, at `(r, k)`. -/
theorem cubeSum_host (X : Cube Ideal) (r : Fin 4096) (k : Fin 64) :
    Host.reduceAdd (F := Ideal) X (constant (F := Ideal) Cert.ReferenceIdeal.S_ .f32 0x00000000#32)
      Cert.ReferenceIdeal.Gen.reducesTo_S4096x64x128_S4096x64_d2 Cert.ReferenceIdeal.Gen.h_S_ (ix2 r k) = ∑ q : Fin 128, X (ix3 r k q) := by
  simp only [Host.reduceAdd, Ideal.hostReduceAdd_def]
  rw [Ideal.hostReduceAdd_single Cert.ReferenceIdeal.Gen.reducesTo_S4096x64x128_S4096x64_d2 (by decide)]
  rw [constant_apply, Ideal.ofBits_zero_f32, zero_add]
  exact Finset.sum_congr rfl fun q _ => congrArg X (funext fun a => Fin.ext (by match a with | ⟨0, _⟩ => rfl | ⟨1, _⟩ => rfl | ⟨2, _⟩ => rfl))

/-- A relation array repeated along the 64 corrupted triplets reads, at `(r, k, d)`, row `r` at `d`. -/
theorem alongNegatives_apply (R : Rows Ideal) (r : Fin 4096) (k : Fin 64) (q : Fin 128) :
    alongNegatives (F := Ideal) R (ix3 r k q) = R (ix2 r q) := by
  unfold alongNegatives
  refine (broadcastInDim_apply _ _ _ (ix3 r k q) (ix3 r (0 : Fin 1) q) (fun a => match a with
    | ⟨0, _⟩ => by show r.val = if (4096 : Nat) = 1 then 0 else r.val; rw [if_neg (by decide)]
    | ⟨1, _⟩ => by show 0 = if (1 : Nat) = 1 then 0 else k.val; rw [if_pos rfl]
    | ⟨2, _⟩ => by show q.val = if (128 : Nat) = 1 then 0 else q.val; rw [if_neg (by decide)])).trans ?_
  exact broadcastInDim_apply _ _ R (ix3 r (0 : Fin 1) q) (ix2 r q) (fun a => match a with
    | ⟨0, _⟩ => by show r.val = if (4096 : Nat) = 1 then 0 else r.val; rw [if_neg (by decide)]
    | ⟨1, _⟩ => by show q.val = if (128 : Nat) = 1 then 0 else q.val; rw [if_neg (by decide)])

/-- Entry `r` of the positive score is the score of row `r` of the six arrays. -/
theorem posScore_apply (HC HR TC TR RC RR : Rows Ideal) (r : Fin 4096) :
    posScore (F := Ideal) HC HR TC TR RC RR (ix1 r)
      = score (fun q => HC (ix2 r q)) (fun q => HR (ix2 r q)) (fun q => TC (ix2 r q))
          (fun q => TR (ix2 r q)) (fun q => RC (ix2 r q)) (fun q => RR (ix2 r q)) := by
  unfold posScore
  exact congrArg₂ (fun a b : EReal => a - b) (rowSum_host _ r) (rowSum_host _ r)

/-- Entry `(r, k)` of the negative score is the score of row `(r, k)` of the four entity arrays and row `r`
    of the two relation arrays. -/
theorem negScore_apply (HC HR TC TR : Cube Ideal) (RC RR : Rows Ideal) (r : Fin 4096) (k : Fin 64) :
    negScore (F := Ideal) HC HR TC TR RC RR (ix2 r k)
      = score (fun q => HC (ix3 r k q)) (fun q => HR (ix3 r k q)) (fun q => TC (ix3 r k q))
          (fun q => TR (ix3 r k q)) (fun q => RC (ix2 r q)) (fun q => RR (ix2 r q)) := by
  unfold negScore
  refine (congrArg₂ (fun a b : EReal => a - b) (cubeSum_host _ r k) (cubeSum_host _ r k)).trans ?_
  refine congrArg₂ (fun a b : EReal => a - b) (Finset.sum_congr rfl fun q _ => ?_) (Finset.sum_congr rfl fun q _ => ?_)
  · show FloatOps.absf (F := Ideal) (φ := .f32) ((HR (ix3 r k q) + alongNegatives (F := Ideal) RR (ix3 r k q)) + TR (ix3 r k q)) = _
    rw [alongNegatives_apply]
  · show FloatOps.absf (F := Ideal) (φ := .f32) ((HC (ix3 r k q) + alongNegatives (F := Ideal) RC (ix3 r k q)) - TC (ix3 r k q)) = _
    rw [alongNegatives_apply]

/-! ## From blocks to arrays -/

variable (V : (c : Dev nD) → (b : Ref sig .tc) → Buf (Elt Ideal) ((c : Thread nD τ).loc b))

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- A rank-1 index with coordinate `p` is `ix1 p`. -/
theorem eq_ix1_of_val {n : ℕ} (j : (⟨1, ![n]⟩ : Shape).Idx) (p : Fin n) (hp : (j 0).val = p.val) : j = ix1 p :=
  funext fun a => by match a with | ⟨0, _⟩ => exact Fin.ext hp

/-- A rank-2 index with coordinates `p`, `k` is `ix2 p k`. -/
theorem eq_ix2_of_val {n m : ℕ} (j : (⟨2, ![n, m]⟩ : Shape).Idx) (p : Fin n) (k : Fin m) (hp : (j 0).val = p.val)
    (hk : (j 1).val = k.val) : j = ix2 p k :=
  funext fun a => by match a with | ⟨0, _⟩ => exact Fin.ext hp | ⟨1, _⟩ => exact Fin.ext hk

/-- The score depends on its six rows entry by entry. -/
theorem score_congr {hc hr tc tr rc rr hc' hr' tc' tr' rc' rr' : Fin 128 → EReal}
    (h1 : ∀ q, hc q = hc' q) (h2 : ∀ q, hr q = hr' q) (h3 : ∀ q, tc q = tc' q) (h4 : ∀ q, tr q = tr' q)
    (h5 : ∀ q, rc q = rc' q) (h6 : ∀ q, rr q = rr' q) : score hc hr tc tr rc rr = score hc' hr' tc' tr' rc' rr' := by
  obtain rfl : hc = hc' := funext h1
  obtain rfl : hr = hr' := funext h2
  obtain rfl : tc = tc' := funext h3
  obtain rfl : tr = tr' := funext h4
  obtain rfl : rc = rc' := funext h5
  obtain rfl : rr = rr' := funext h6
  rfl

/-- The stored positive score at an entry whose coordinate is `p`. -/
theorem pos_payload_at (hc rc hr rr tc tr : Vec Ideal S1024x128 .f32) (j : S1024.Idx) (p : Fin 1024) (hp : (j 0).val = p.val) :
    k3_pay1 (F := Ideal) hc rc hr rr tc tr j
      = score (fun q => hc (ix2 p q)) (fun q => hr (ix2 p q)) (fun q => tc (ix2 p q))
          (fun q => tr (ix2 p q)) (fun q => rc (ix2 p q)) (fun q => rr (ix2 p q)) := by
  obtain rfl := eq_ix1_of_val j p hp
  exact pos_payload hc rc hr rr tc tr p

/-- The positive score at an entry whose coordinate is `r`. -/
theorem posScore_at (HC HR TC TR RC RR : Rows Ideal) (i : S4096.Idx) (r : Fin 4096) (hr : (i 0).val = r.val) :
    posScore (F := Ideal) HC HR TC TR RC RR i
      = score (fun q => HC (ix2 r q)) (fun q => HR (ix2 r q)) (fun q => TC (ix2 r q))
          (fun q => TR (ix2 r q)) (fun q => RC (ix2 r q)) (fun q => RR (ix2 r q)) := by
  obtain rfl := eq_ix1_of_val i r hr
  exact posScore_apply HC HR TC TR RC RR r

/-! ### The positive scores: 4 points, blocks of 1024 triplets -/

/-- At point `t` every window of the positive-score call is at block `t` of its rows and block 0 of its
    coordinates. -/
theorem pos_index_facts : ∀ t : Fin cfg3.N,
      win3_6.index t (0 : Fin 1) = t.val
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Row `p` of point `t`'s block of the head centres is row `t · 1024 + p` of the array. -/
theorem pos_rows0 (t : Fin cfg3.N) (p : Fin 1024) (q : Fin 128) (r : Fin 4096) (hr : r.val = t.val * 1024 + p.val) :
    ((cfg3.win 0).blk t).view.emb (ix2 p q) = ix2 r q := by
  obtain ⟨-, e0, e1, -, -, -, -, -, -, -, -, -, -⟩ := pos_index_facts t
  funext a; apply Fin.ext
  match a with
  | ⟨0, _⟩ => show win3_0.index t (0 : Fin 2) * 1024 + 1 * p.val = r.val; omega
  | ⟨1, _⟩ => show win3_0.index t (1 : Fin 2) * 128 + 1 * q.val = q.val; omega

/-- Row `p` of point `t`'s block of the head radii is row `t · 1024 + p` of the array. -/
theorem pos_rows1 (t : Fin cfg3.N) (p : Fin 1024) (q : Fin 128) (r : Fin 4096) (hr : r.val = t.val * 1024 + p.val) :
    ((cfg3.win 1).blk t).view.emb (ix2 p q) = ix2 r q := by
  obtain ⟨-, -, -, e0, e1, -, -, -, -, -, -, -, -⟩ := pos_index_facts t
  funext a; apply Fin.ext
  match a with
  | ⟨0, _⟩ => show win3_1.index t (0 : Fin 2) * 1024 + 1 * p.val = r.val; omega
  | ⟨1, _⟩ => show win3_1.index t (1 : Fin 2) * 128 + 1 * q.val = q.val; omega

/-- Row `p` of point `t`'s block of the tail centres is row `t · 1024 + p` of the array. -/
theorem pos_rows2 (t : Fin cfg3.N) (p : Fin 1024) (q : Fin 128) (r : Fin 4096) (hr : r.val = t.val * 1024 + p.val) :
    ((cfg3.win 2).blk t).view.emb (ix2 p q) = ix2 r q := by
  obtain ⟨-, -, -, -, -, e0, e1, -, -, -, -, -, -⟩ := pos_index_facts t
  funext a; apply Fin.ext
  match a with
  | ⟨0, _⟩ => show win3_2.index t (0 : Fin 2) * 1024 + 1 * p.val = r.val; omega
  | ⟨1, _⟩ => show win3_2.index t (1 : Fin 2) * 128 + 1 * q.val = q.val; omega

/-- Row `p` of point `t`'s block of the tail radii is row `t · 1024 + p` of the array. -/
theorem pos_rows3 (t : Fin cfg3.N) (p : Fin 1024) (q : Fin 128) (r : Fin 4096) (hr : r.val = t.val * 1024 + p.val) :
    ((cfg3.win 3).blk t).view.emb (ix2 p q) = ix2 r q := by
  obtain ⟨-, -, -, -, -, -, -, e0, e1, -, -, -, -⟩ := pos_index_facts t
  funext a; apply Fin.ext
  match a with
  | ⟨0, _⟩ => show win3_3.index t (0 : Fin 2) * 1024 + 1 * p.val = r.val; omega
  | ⟨1, _⟩ => show win3_3.index t (1 : Fin 2) * 128 + 1 * q.val = q.val; omega

/-- Row `p` of point `t`'s block of the relation centres is row `t · 1024 + p` of the array. -/
theorem pos_rows4 (t : Fin cfg3.N) (p : Fin 1024) (q : Fin 128) (r : Fin 4096) (hr : r.val = t.val * 1024 + p.val) :
    ((cfg3.win 4).blk t).view.emb (ix2 p q) = ix2 r q := by
  obtain ⟨-, -, -, -, -, -, -, -, -, e0, e1, -, -⟩ := pos_index_facts t
  funext a; apply Fin.ext
  match a with
  | ⟨0, _⟩ => show win3_4.index t (0 : Fin 2) * 1024 + 1 * p.val = r.val; omega
  | ⟨1, _⟩ => show win3_4.index t (1 : Fin 2) * 128 + 1 * q.val = q.val; omega

/-- Row `p` of point `t`'s block of the relation radii is row `t · 1024 + p` of the array. -/
theorem pos_rows5 (t : Fin cfg3.N) (p : Fin 1024) (q : Fin 128) (r : Fin 4096) (hr : r.val = t.val * 1024 + p.val) :
    ((cfg3.win 5).blk t).view.emb (ix2 p q) = ix2 r q := by
  obtain ⟨-, -, -, -, -, -, -, -, -, -, -, e0, e1⟩ := pos_index_facts t
  funext a; apply Fin.ext
  match a with
  | ⟨0, _⟩ => show win3_5.index t (0 : Fin 2) * 1024 + 1 * p.val = r.val; omega
  | ⟨1, _⟩ => show win3_5.index t (1 : Fin 2) * 128 + 1 * q.val = q.val; omega

/-- What point `t` writes back is block `t` of the positive scores of the six arrays as the call finds them. -/
theorem pos_flushed (c : Dev nD) (t : Fin cfg3.N) :
    (dat3 (F := Ideal) V c).flushed 6 t = ((cfg3.win 6).blk t).view.read (Elt Ideal)
      (posScore (V c main_v90) (V c main_v99) (V c main_v108) (V c main_v117) (V c main_v71) (V c main_v81)) := by
  show (cfg3.win 6).cut (grid3.coords t) ((dat3 (F := Ideal) V c).after 6 t) = _
  rw [after3_6]
  unfold out3_6
  rw [View.canon_unit_zero zeros1]
  simp only [View.ld_unit_zero (S := S1024x128) zeros2]
  obtain ⟨e6, -⟩ := pos_index_facts t
  funext j
  show k3_pay1 (F := Ideal) (iblk3 V c 0 t) (iblk3 V c 4 t) (iblk3 V c 1 t) (iblk3 V c 5 t) (iblk3 V c 2 t) (iblk3 V c 3 t) j
      = posScore (V c main_v90) (V c main_v99) (V c main_v108) (V c main_v117) (V c main_v71) (V c main_v81)
          (((cfg3.win 6).blk t).view.emb j)
  have hj : (j 0).val < 1024 := (j 0).isLt
  have ht : t.val < 4 := t.isLt
  have hr : (⟨t.val * 1024 + (j 0).val, by omega⟩ : Fin 4096).val = t.val * 1024 + (⟨(j 0).val, hj⟩ : Fin 1024).val := rfl
  refine (pos_payload_at (iblk3 V c 0 t) (iblk3 V c 4 t) (iblk3 V c 1 t) (iblk3 V c 5 t) (iblk3 V c 2 t) (iblk3 V c 3 t)
    j ⟨(j 0).val, hj⟩ rfl).trans ?_
  refine Eq.trans ?_ (posScore_at (V c main_v90) (V c main_v99) (V c main_v108) (V c main_v117) (V c main_v71) (V c main_v81)
    (((cfg3.win 6).blk t).view.emb j) ⟨t.val * 1024 + (j 0).val, by omega⟩
    (by show win3_6.index t (0 : Fin 1) * 1024 + 1 * (j 0).val = t.val * 1024 + (j 0).val; omega)).symm
  refine score_congr (fun q => ?_) (fun q => ?_) (fun q => ?_) (fun q => ?_) (fun q => ?_) (fun q => ?_)
  · show V c main_v90 (((cfg3.win 0).blk t).view.emb (ix2 ⟨(j 0).val, hj⟩ q)) = _
    rw [pos_rows0 t _ q _ hr]
  · show V c main_v99 (((cfg3.win 1).blk t).view.emb (ix2 ⟨(j 0).val, hj⟩ q)) = _
    rw [pos_rows1 t _ q _ hr]
  · show V c main_v108 (((cfg3.win 2).blk t).view.emb (ix2 ⟨(j 0).val, hj⟩ q)) = _
    rw [pos_rows2 t _ q _ hr]
  · show V c main_v117 (((cfg3.win 3).blk t).view.emb (ix2 ⟨(j 0).val, hj⟩ q)) = _
    rw [pos_rows3 t _ q _ hr]
  · show V c main_v71 (((cfg3.win 4).blk t).view.emb (ix2 ⟨(j 0).val, hj⟩ q)) = _
    rw [pos_rows4 t _ q _ hr]
  · show V c main_v81 (((cfg3.win 5).blk t).view.emb (ix2 ⟨(j 0).val, hj⟩ q)) = _
    rw [pos_rows5 t _ q _ hr]

/-- An entry is in point `t`'s block of the positive scores iff its coordinate is in the block's range. -/
theorem pos_mem_blk (t : Fin cfg3.N) (i : S4096.Idx) :
    i ∈ ((cfg3.win 6).blk t).view.set ↔ ∀ a : Fin 1, win3_6.index t a * S1024.size a ≤ (i a).val ∧ (i a).val < win3_6.index t a * S1024.size a + S1024.size a := by
  show i ∈ ((View.whole main_v118).slice (win3_6.rect t)).set ↔ _
  rw [View.set_slice_whole, Rect.mem_set_unit]
  exact Iff.rfl

/-- Triplet `r` lies in the block of point `r / 1024`. -/
theorem pos_cover (i : S4096.Idx) : ∃ t : Fin cfg3.N, (cfg3.win 6).flush t = true ∧ i ∈ ((cfg3.win 6).blk t).view.set := by
  have hi : (i 0).val < 4096 := (i 0).isLt
  have ht : (i 0).val / 1024 < 4 := by omega
  obtain ⟨e6, -⟩ := pos_index_facts ⟨(i 0).val / 1024, ht⟩
  have e6' : win3_6.index ⟨(i 0).val / 1024, ht⟩ (0 : Fin 1) = (i 0).val / 1024 := e6
  refine ⟨⟨(i 0).val / 1024, ht⟩, flush3_6 _, ?_⟩
  rw [pos_mem_blk]
  intro a
  match a with
  | ⟨0, _⟩ => show win3_6.index ⟨(i 0).val / 1024, ht⟩ (0 : Fin 1) * 1024 ≤ (i 0).val ∧ (i 0).val < win3_6.index ⟨(i 0).val / 1024, ht⟩ (0 : Fin 1) * 1024 + 1024; omega

/-- After the call the positive-score array holds the positive scores of the six arrays as the call found them. -/
theorem pos_scores (c : Dev nD) :
    (dat3 (F := Ideal) V c).arrAt 6 cfg3.N
      = posScore (V c main_v90) (V c main_v99) (V c main_v108) (V c main_v117) (V c main_v71) (V c main_v81) :=
  (dat3 (F := Ideal) V c).arrAt_eq_of_cover 6 _ (fun t _ => pos_flushed V c t) pos_cover

/-! ### The negative scores: 64 points, blocks of 64 triplets with their 64 corruptions -/

/-- The stored negative score at an entry whose coordinates are `(b, k)`. -/
theorem neg_payload_at (rc rr : Vec Ideal S64x128 .f32) (hc hr tc tr : Vec Ideal S64x64x128 .f32) (j : S64x64.Idx)
    (b k : Fin 64) (hb : (j 0).val = b.val) (hk : (j 1).val = k.val) :
    k4_pay1 (F := Ideal) rc rr hc hr tc tr j
      = score (fun q => hc (ix3 b k q)) (fun q => hr (ix3 b k q)) (fun q => tc (ix3 b k q))
          (fun q => tr (ix3 b k q)) (fun q => rc (ix2 b q)) (fun q => rr (ix2 b q)) := by
  obtain rfl := eq_ix2_of_val j b k hb hk
  exact neg_payload rc rr hc hr tc tr b k

/-- The negative score at an entry whose coordinates are `(r, k)`. -/
theorem negScore_at (HC HR TC TR : Cube Ideal) (RC RR : Rows Ideal) (i : S4096x64.Idx) (r : Fin 4096) (k : Fin 64)
    (hr : (i 0).val = r.val) (hk : (i 1).val = k.val) :
    negScore (F := Ideal) HC HR TC TR RC RR i
      = score (fun q => HC (ix3 r k q)) (fun q => HR (ix3 r k q)) (fun q => TC (ix3 r k q))
          (fun q => TR (ix3 r k q)) (fun q => RC (ix2 r q)) (fun q => RR (ix2 r q)) := by
  obtain rfl := eq_ix2_of_val i r k hr hk
  exact negScore_apply HC HR TC TR RC RR r k

/-- At point `t` every window of the negative-score call is at block `t` of its rows and block 0 of its
    other axes. -/
theorem neg_index_facts : ∀ t : Fin cfg4.N,
      win4_6.index t (0 : Fin 2) = t.val ∧ win4_6.index t (1 : Fin 2) = 0
    ∧ win4_0.index t (0 : Fin 3) = t.val ∧ win4_0.index t (1 : Fin 3) = 0 ∧ win4_0.index t (2 : Fin 3) = 0
    ∧ win4_1.index t (0 : Fin 3) = t.val ∧ win4_1.index t (1 : Fin 3) = 0 ∧ win4_1.index t (2 : Fin 3) = 0
    ∧ win4_2.index t (0 : Fin 3) = t.val ∧ win4_2.index t (1 : Fin 3) = 0 ∧ win4_2.index t (2 : Fin 3) = 0
    ∧ win4_3.index t (0 : Fin 3) = t.val ∧ win4_3.index t (1 : Fin 3) = 0 ∧ win4_3.index t (2 : Fin 3) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- Row `(b, k)` of point `t`'s block of the corrupted head centres is row `(t · 64 + b, k)` of the array. -/
theorem neg_rows0 (t : Fin cfg4.N) (b k : Fin 64) (q : Fin 128) (r : Fin 4096) (hr : r.val = t.val * 64 + b.val) :
    ((cfg4.win 0).blk t).view.emb (ix3 b k q) = ix3 r k q := by
  obtain ⟨-, -, e00, e01, e02, -, -, -, -, -, -, -, -, -, -, -, -, -⟩ := neg_index_facts t
  funext a; apply Fin.ext
  match a with
  | ⟨0, _⟩ => show win4_0.index t (0 : Fin 3) * 64 + 1 * b.val = r.val; omega
  | ⟨1, _⟩ => show win4_0.index t (1 : Fin 3) * 64 + 1 * k.val = k.val; omega
  | ⟨2, _⟩ => show win4_0.index t (2 : Fin 3) * 128 + 1 * q.val = q.val; omega

/-- Row `(b, k)` of point `t`'s block of the corrupted head radii is row `(t · 64 + b, k)` of the array. -/
theorem neg_rows1 (t : Fin cfg4.N) (b k : Fin 64) (q : Fin 128) (r : Fin 4096) (hr : r.val = t.val * 64 + b.val) :
    ((cfg4.win 1).blk t).view.emb (ix3 b k q) = ix3 r k q := by
  obtain ⟨-, -, -, -, -, e10, e11, e12, -, -, -, -, -, -, -, -, -, -⟩ := neg_index_facts t
  funext a; apply Fin.ext
  match a with
  | ⟨0, _⟩ => show win4_1.index t (0 : Fin 3) * 64 + 1 * b.val = r.val; omega
  | ⟨1, _⟩ => show win4_1.index t (1 : Fin 3) * 64 + 1 * k.val = k.val; omega
  | ⟨2, _⟩ => show win4_1.index t (2 : Fin 3) * 128 + 1 * q.val = q.val; omega

/-- Row `(b, k)` of point `t`'s block of the corrupted tail centres is row `(t · 64 + b, k)` of the array. -/
theorem neg_rows2 (t : Fin cfg4.N) (b k : Fin 64) (q : Fin 128) (r : Fin 4096) (hr : r.val = t.val * 64 + b.val) :
    ((cfg4.win 2).blk t).view.emb (ix3 b k q) = ix3 r k q := by
  obtain ⟨-, -, -, -, -, -, -, -, e20, e21, e22, -, -, -, -, -, -, -⟩ := neg_index_facts t
  funext a; apply Fin.ext
  match a with
  | ⟨0, _⟩ => show win4_2.index t (0 : Fin 3) * 64 + 1 * b.val = r.val; omega
  | ⟨1, _⟩ => show win4_2.index t (1 : Fin 3) * 64 + 1 * k.val = k.val; omega
  | ⟨2, _⟩ => show win4_2.index t (2 : Fin 3) * 128 + 1 * q.val = q.val; omega

/-- Row `(b, k)` of point `t`'s block of the corrupted tail radii is row `(t · 64 + b, k)` of the array. -/
theorem neg_rows3 (t : Fin cfg4.N) (b k : Fin 64) (q : Fin 128) (r : Fin 4096) (hr : r.val = t.val * 64 + b.val) :
    ((cfg4.win 3).blk t).view.emb (ix3 b k q) = ix3 r k q := by
  obtain ⟨-, -, -, -, -, -, -, -, -, -, -, e30, e31, e32, -, -, -, -⟩ := neg_index_facts t
  funext a; apply Fin.ext
  match a with
  | ⟨0, _⟩ => show win4_3.index t (0 : Fin 3) * 64 + 1 * b.val = r.val; omega
  | ⟨1, _⟩ => show win4_3.index t (1 : Fin 3) * 64 + 1 * k.val = k.val; omega
  | ⟨2, _⟩ => show win4_3.index t (2 : Fin 3) * 128 + 1 * q.val = q.val; omega

/-- Row `b` of point `t`'s block of the relation centres is row `t · 64 + b` of the array. -/
theorem neg_rows4 (t : Fin cfg4.N) (b : Fin 64) (q : Fin 128) (r : Fin 4096) (hr : r.val = t.val * 64 + b.val) :
    ((cfg4.win 4).blk t).view.emb (ix2 b q) = ix2 r q := by
  obtain ⟨-, -, -, -, -, -, -, -, -, -, -, -, -, -, e40, e41, -, -⟩ := neg_index_facts t
  funext a; apply Fin.ext
  match a with
  | ⟨0, _⟩ => show win4_4.index t (0 : Fin 2) * 64 + 1 * b.val = r.val; omega
  | ⟨1, _⟩ => show win4_4.index t (1 : Fin 2) * 128 + 1 * q.val = q.val; omega

/-- Row `b` of point `t`'s block of the relation radii is row `t · 64 + b` of the array. -/
theorem neg_rows5 (t : Fin cfg4.N) (b : Fin 64) (q : Fin 128) (r : Fin 4096) (hr : r.val = t.val * 64 + b.val) :
    ((cfg4.win 5).blk t).view.emb (ix2 b q) = ix2 r q := by
  obtain ⟨-, -, -, -, -, -, -, -, -, -, -, -, -, -, -, -, e50, e51⟩ := neg_index_facts t
  funext a; apply Fin.ext
  match a with
  | ⟨0, _⟩ => show win4_5.index t (0 : Fin 2) * 64 + 1 * b.val = r.val; omega
  | ⟨1, _⟩ => show win4_5.index t (1 : Fin 2) * 128 + 1 * q.val = q.val; omega

/-- What point `t` writes back is block `t` of the negative scores of the six arrays as the call finds them. -/
theorem neg_flushed (c : Dev nD) (t : Fin cfg4.N) :
    (dat4 (F := Ideal) V c).flushed 6 t = ((cfg4.win 6).blk t).view.read (Elt Ideal)
      (negScore (V c main_v127) (V c main_v136) (V c main_v145) (V c main_v154) (V c main_v71) (V c main_v81)) := by
  show (cfg4.win 6).cut (grid4.coords t) ((dat4 (F := Ideal) V c).after 6 t) = _
  rw [after4_6]
  unfold out4_6
  rw [View.canon_unit_zero zeros2]
  simp only [View.ld_unit_zero (S := S64x128) zeros2, View.ld_unit_zero (S := S64x64x128) zeros3]
  obtain ⟨e60, e61, -⟩ := neg_index_facts t
  funext j
  show k4_pay1 (F := Ideal) (iblk4 V c 4 t) (iblk4 V c 5 t) (iblk4 V c 0 t) (iblk4 V c 1 t) (iblk4 V c 2 t) (iblk4 V c 3 t) j
      = negScore (V c main_v127) (V c main_v136) (V c main_v145) (V c main_v154) (V c main_v71) (V c main_v81)
          (((cfg4.win 6).blk t).view.emb j)
  have hj0 : (j 0).val < 64 := (j 0).isLt
  have hj1 : (j 1).val < 64 := (j 1).isLt
  have ht : t.val < 64 := t.isLt
  have hr : (⟨t.val * 64 + (j 0).val, by omega⟩ : Fin 4096).val = t.val * 64 + (⟨(j 0).val, hj0⟩ : Fin 64).val := rfl
  refine (neg_payload_at (iblk4 V c 4 t) (iblk4 V c 5 t) (iblk4 V c 0 t) (iblk4 V c 1 t) (iblk4 V c 2 t) (iblk4 V c 3 t)
    j ⟨(j 0).val, hj0⟩ ⟨(j 1).val, hj1⟩ rfl rfl).trans ?_
  refine Eq.trans ?_ (negScore_at (V c main_v127) (V c main_v136) (V c main_v145) (V c main_v154) (V c main_v71) (V c main_v81)
    (((cfg4.win 6).blk t).view.emb j) ⟨t.val * 64 + (j 0).val, by omega⟩ ⟨(j 1).val, hj1⟩
    (by show win4_6.index t (0 : Fin 2) * 64 + 1 * (j 0).val = t.val * 64 + (j 0).val; omega)
    (by show win4_6.index t (1 : Fin 2) * 64 + 1 * (j 1).val = (j 1).val; omega)).symm
  refine score_congr (fun q => ?_) (fun q => ?_) (fun q => ?_) (fun q => ?_) (fun q => ?_) (fun q => ?_)
  · show V c main_v127 (((cfg4.win 0).blk t).view.emb (ix3 ⟨(j 0).val, hj0⟩ ⟨(j 1).val, hj1⟩ q)) = _
    rw [neg_rows0 t _ _ q _ hr]
  · show V c main_v136 (((cfg4.win 1).blk t).view.emb (ix3 ⟨(j 0).val, hj0⟩ ⟨(j 1).val, hj1⟩ q)) = _
    rw [neg_rows1 t _ _ q _ hr]
  · show V c main_v145 (((cfg4.win 2).blk t).view.emb (ix3 ⟨(j 0).val, hj0⟩ ⟨(j 1).val, hj1⟩ q)) = _
    rw [neg_rows2 t _ _ q _ hr]
  · show V c main_v154 (((cfg4.win 3).blk t).view.emb (ix3 ⟨(j 0).val, hj0⟩ ⟨(j 1).val, hj1⟩ q)) = _
    rw [neg_rows3 t _ _ q _ hr]
  · show V c main_v71 (((cfg4.win 4).blk t).view.emb (ix2 ⟨(j 0).val, hj0⟩ q)) = _
    rw [neg_rows4 t _ q _ hr]
  · show V c main_v81 (((cfg4.win 5).blk t).view.emb (ix2 ⟨(j 0).val, hj0⟩ q)) = _
    rw [neg_rows5 t _ q _ hr]

/-- An entry is in point `t`'s block of the negative scores iff each coordinate is in the block's range. -/
theorem neg_mem_blk (t : Fin cfg4.N) (i : S4096x64.Idx) :
    i ∈ ((cfg4.win 6).blk t).view.set ↔ ∀ a : Fin 2, win4_6.index t a * S64x64.size a ≤ (i a).val ∧ (i a).val < win4_6.index t a * S64x64.size a + S64x64.size a := by
  show i ∈ ((View.whole main_v155).slice (win4_6.rect t)).set ↔ _
  rw [View.set_slice_whole, Rect.mem_set_unit]
  exact Iff.rfl

/-- Entry `(r, k)` lies in the block of point `r / 64`. -/
theorem neg_cover (i : S4096x64.Idx) : ∃ t : Fin cfg4.N, (cfg4.win 6).flush t = true ∧ i ∈ ((cfg4.win 6).blk t).view.set := by
  have hi0 : (i 0).val < 4096 := (i 0).isLt
  have hi1 : (i 1).val < 64 := (i 1).isLt
  have ht : (i 0).val / 64 < 64 := by omega
  obtain ⟨e60, e61, -⟩ := neg_index_facts ⟨(i 0).val / 64, ht⟩
  have e60' : win4_6.index ⟨(i 0).val / 64, ht⟩ (0 : Fin 2) = (i 0).val / 64 := e60
  refine ⟨⟨(i 0).val / 64, ht⟩, flush4_6 _, ?_⟩
  rw [neg_mem_blk]
  intro a
  match a with
  | ⟨0, _⟩ => show win4_6.index ⟨(i 0).val / 64, ht⟩ (0 : Fin 2) * 64 ≤ (i 0).val ∧ (i 0).val < win4_6.index ⟨(i 0).val / 64, ht⟩ (0 : Fin 2) * 64 + 64; omega
  | ⟨1, _⟩ => show win4_6.index ⟨(i 0).val / 64, ht⟩ (1 : Fin 2) * 64 ≤ (i 1).val ∧ (i 1).val < win4_6.index ⟨(i 0).val / 64, ht⟩ (1 : Fin 2) * 64 + 64; omega

/-- After the call the negative-score array holds the negative scores of the six arrays as the call found them. -/
theorem neg_scores (c : Dev nD) :
    (dat4 (F := Ideal) V c).arrAt 6 cfg4.N
      = negScore (V c main_v127) (V c main_v136) (V c main_v145) (V c main_v154) (V c main_v71) (V c main_v81) :=
  (dat4 (F := Ideal) V c).arrAt_eq_of_cover 6 _ (fun t _ => neg_flushed V c t) neg_cover

end Cert.KernelIdeal.Score
end
-- ==== Proof.Boundaries.lean ====
/-
  The kernel program's buffers, boundary by boundary, as the reference's stages of the argument arrays.

  @main of the kernel program alternates stretches of host operations with the five pallas_call regions; the generated
  frame proof names what every buffer holds at each of the twelve boundaries (`Gen.W1` … `Gen.W12`). This module walks
  them in order. A stretch of host operations is the same list of operations the reference program runs on the same
  operands, so what it leaves in a buffer is, once its operands are known, the reference's stage of the same name in the
  data flow (`Read.val_main_vN`), by unfolding. A region leaves in its output array the dense stage of its input arrays
  (the region modules), which is again the reference's stage by unfolding: a projection, an interval ReLU, a score. A
  buffer that a stretch does not write, or that a region does not stage, or stages as an input only, is carried over.
  At the last boundary the two result buffers hold the reference's two results.
-/
import proofs.«129168_j42064909697221_1_alg».proof.Proof.Gen.KernelIdeal.Frame
import proofs.«129168_j42064909697221_1_alg».proof.Proof.Gen.ReferenceIdeal.Read
import proofs.«129168_j42064909697221_1_alg».proof.Proof.Stages
import proofs.«129168_j42064909697221_1_alg».proof.Proof.RegionProject
import proofs.«129168_j42064909697221_1_alg».proof.Proof.RegionRelu
import proofs.«129168_j42064909697221_1_alg».proof.Proof.RegionScore
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## The argument arrays, as launched -/

/-- The positive triplets (head, relation, tail). -/
abbrev a0 (c : Dev nD) : (⟨S4096x3, .i32⟩ : BufTy).Contents (Elt Ideal) := m ((c : Thread nD τ).loc main_arg0)
/-- The corrupted triplets, 64 per positive one. -/
abbrev a1 (c : Dev nD) : (⟨S4096x64x3, .i32⟩ : BufTy).Contents (Elt Ideal) := m ((c : Thread nD τ).loc main_arg1)
/-- The edges' rows, columns and weights. -/
abbrev a2 (c : Dev nD) : (⟨S1100000, .i32⟩ : BufTy).Contents (Elt Ideal) := m ((c : Thread nD τ).loc main_arg2)
abbrev a3 (c : Dev nD) : (⟨S1100000, .i32⟩ : BufTy).Contents (Elt Ideal) := m ((c : Thread nD τ).loc main_arg3)
abbrev a4 (c : Dev nD) : (⟨S1100000, .f32⟩ : BufTy).Contents (Elt Ideal) := m ((c : Thread nD τ).loc main_arg4)
/-- The entities' centres and radius parameters. -/
abbrev a5 (c : Dev nD) : (⟨S100000x128, .f32⟩ : BufTy).Contents (Elt Ideal) := m ((c : Thread nD τ).loc main_arg5)
abbrev a6 (c : Dev nD) : (⟨S100000x128, .f32⟩ : BufTy).Contents (Elt Ideal) := m ((c : Thread nD τ).loc main_arg6)
/-- The relations' centres and radius parameters. -/
abbrev a7 (c : Dev nD) : (⟨S500x128, .f32⟩ : BufTy).Contents (Elt Ideal) := m ((c : Thread nD τ).loc main_arg7)
abbrev a8 (c : Dev nD) : (⟨S500x128, .f32⟩ : BufTy).Contents (Elt Ideal) := m ((c : Thread nD τ).loc main_arg8)
/-- The two layers' weight matrices. -/
abbrev a9 (c : Dev nD) : (⟨S128x128, .f32⟩ : BufTy).Contents (Elt Ideal) := m ((c : Thread nD τ).loc main_arg9)
abbrev a10 (c : Dev nD) : (⟨S128x128, .f32⟩ : BufTy).Contents (Elt Ideal) := m ((c : Thread nD τ).loc main_arg10)

/-! ## Boundary 1: after the transposes of W1, |W1|, W2, |W2| -/

theorem at1_arg0 (c : Dev nD) : W1 m ρ c (Proc.devRef .tc main_arg0) = (a0 m c) := by
  show StableHlo.after hostOps0 (W0 m ρ c) (Proc.devRef .tc main_arg0) = _
  after_results_simp <;> rfl
theorem at1_arg1 (c : Dev nD) : W1 m ρ c (Proc.devRef .tc main_arg1) = (a1 m c) := by
  show StableHlo.after hostOps0 (W0 m ρ c) (Proc.devRef .tc main_arg1) = _
  after_results_simp <;> rfl
theorem at1_arg2 (c : Dev nD) : W1 m ρ c (Proc.devRef .tc main_arg2) = (a2 m c) := by
  show StableHlo.after hostOps0 (W0 m ρ c) (Proc.devRef .tc main_arg2) = _
  after_results_simp <;> rfl
theorem at1_arg3 (c : Dev nD) : W1 m ρ c (Proc.devRef .tc main_arg3) = (a3 m c) := by
  show StableHlo.after hostOps0 (W0 m ρ c) (Proc.devRef .tc main_arg3) = _
  after_results_simp <;> rfl
theorem at1_arg4 (c : Dev nD) : W1 m ρ c (Proc.devRef .tc main_arg4) = (a4 m c) := by
  show StableHlo.after hostOps0 (W0 m ρ c) (Proc.devRef .tc main_arg4) = _
  after_results_simp <;> rfl
theorem at1_arg5 (c : Dev nD) : W1 m ρ c (Proc.devRef .tc main_arg5) = (a5 m c) := by
  show StableHlo.after hostOps0 (W0 m ρ c) (Proc.devRef .tc main_arg5) = _
  after_results_simp <;> rfl
theorem at1_arg6 (c : Dev nD) : W1 m ρ c (Proc.devRef .tc main_arg6) = (a6 m c) := by
  show StableHlo.after hostOps0 (W0 m ρ c) (Proc.devRef .tc main_arg6) = _
  after_results_simp <;> rfl
theorem at1_arg7 (c : Dev nD) : W1 m ρ c (Proc.devRef .tc main_arg7) = (a7 m c) := by
  show StableHlo.after hostOps0 (W0 m ρ c) (Proc.devRef .tc main_arg7) = _
  after_results_simp <;> rfl
theorem at1_arg8 (c : Dev nD) : W1 m ρ c (Proc.devRef .tc main_arg8) = (a8 m c) := by
  show StableHlo.after hostOps0 (W0 m ρ c) (Proc.devRef .tc main_arg8) = _
  after_results_simp <;> rfl
theorem at1_v0 (c : Dev nD) : W1 m ρ c (Proc.devRef .tc main_v0) = Cert.ReferenceIdeal.Read.val_main_v20 (F := Ideal) (a9 m c) := by
  show StableHlo.after hostOps0 (W0 m ρ c) (Proc.devRef .tc main_v0) = _
  after_results_simp
  rfl
theorem at1_v2 (c : Dev nD) : W1 m ρ c (Proc.devRef .tc main_v2) = Cert.ReferenceIdeal.Read.val_main_v23 (F := Ideal) (a9 m c) := by
  show StableHlo.after hostOps0 (W0 m ρ c) (Proc.devRef .tc main_v2) = _
  after_results_simp
  rfl
theorem at1_v3 (c : Dev nD) : W1 m ρ c (Proc.devRef .tc main_v3) = Cert.ReferenceIdeal.Read.val_main_v62 (F := Ideal) (a10 m c) := by
  show StableHlo.after hostOps0 (W0 m ρ c) (Proc.devRef .tc main_v3) = _
  after_results_simp
  rfl
theorem at1_v5 (c : Dev nD) : W1 m ρ c (Proc.devRef .tc main_v5) = Cert.ReferenceIdeal.Read.val_main_v65 (F := Ideal) (a10 m c) := by
  show StableHlo.after hostOps0 (W0 m ρ c) (Proc.devRef .tc main_v5) = _
  after_results_simp
  rfl

/-! ## Boundary 2: after the first projection (layer 1: Zc = c · W1ᵀ, Zr = softplus(ρ) · |W1|ᵀ) -/

theorem at2_v6_0 (c : Dev nD) : W2 m ρ c (Proc.devRef .tc main_v6_0) = Cert.ReferenceIdeal.Read.val_main_v21 (F := Ideal) (a5 m c) (a9 m c) := by
  refine (W2_arr m ρ c 4).trans ((Cert.KernelIdeal.Project.layer1_centre (V1 m ρ) c).trans ?_)
  show _ = Cert.ReferenceIdeal.Read.val_main_v21 (F := Ideal) (a5 m c) (a9 m c)
  rw [show V1 m ρ c main_arg5 = _ from at1_arg5 m ρ c, show V1 m ρ c main_v0 = _ from at1_v0 m ρ c]
  rfl
theorem at2_v6_1 (c : Dev nD) : W2 m ρ c (Proc.devRef .tc main_v6_1) = Cert.ReferenceIdeal.Read.val_main_v24 (F := Ideal) (a6 m c) (a9 m c) := by
  refine (W2_arr m ρ c 5).trans ((Cert.KernelIdeal.Project.layer1_radius (V1 m ρ) c).trans ?_)
  show _ = Cert.ReferenceIdeal.Read.val_main_v24 (F := Ideal) (a6 m c) (a9 m c)
  rw [show V1 m ρ c main_arg6 = _ from at1_arg6 m ρ c, show V1 m ρ c main_v2 = _ from at1_v2 m ρ c]
  rfl
theorem at2_arg0 (c : Dev nD) : W2 m ρ c (Proc.devRef .tc main_arg0) = (a0 m c) :=
  (W2_of_ne m ρ c main_arg0 (by decide)).trans (at1_arg0 m ρ c)
theorem at2_arg1 (c : Dev nD) : W2 m ρ c (Proc.devRef .tc main_arg1) = (a1 m c) :=
  (W2_of_ne m ρ c main_arg1 (by decide)).trans (at1_arg1 m ρ c)
theorem at2_arg2 (c : Dev nD) : W2 m ρ c (Proc.devRef .tc main_arg2) = (a2 m c) :=
  (W2_of_ne m ρ c main_arg2 (by decide)).trans (at1_arg2 m ρ c)
theorem at2_arg3 (c : Dev nD) : W2 m ρ c (Proc.devRef .tc main_arg3) = (a3 m c) :=
  (W2_of_ne m ρ c main_arg3 (by decide)).trans (at1_arg3 m ρ c)
theorem at2_arg4 (c : Dev nD) : W2 m ρ c (Proc.devRef .tc main_arg4) = (a4 m c) :=
  (W2_of_ne m ρ c main_arg4 (by decide)).trans (at1_arg4 m ρ c)
theorem at2_arg7 (c : Dev nD) : W2 m ρ c (Proc.devRef .tc main_arg7) = (a7 m c) :=
  (W2_of_ne m ρ c main_arg7 (by decide)).trans (at1_arg7 m ρ c)
theorem at2_arg8 (c : Dev nD) : W2 m ρ c (Proc.devRef .tc main_arg8) = (a8 m c) :=
  (W2_of_ne m ρ c main_arg8 (by decide)).trans (at1_arg8 m ρ c)
theorem at2_v3 (c : Dev nD) : W2 m ρ c (Proc.devRef .tc main_v3) = Cert.ReferenceIdeal.Read.val_main_v62 (F := Ideal) (a10 m c) :=
  (W2_of_ne m ρ c main_v3 (by decide)).trans (at1_v3 m ρ c)
theorem at2_v5 (c : Dev nD) : W2 m ρ c (Proc.devRef .tc main_v5) = Cert.ReferenceIdeal.Read.val_main_v65 (F := Ideal) (a10 m c) :=
  (W2_of_ne m ρ c main_v5 (by decide)).trans (at1_v5 m ρ c)

/-! ## Boundary 3: after layer 1's propagation along the edges (gather by column, weight, segment sum by row) -/

theorem at3_v30 (c : Dev nD) : W3 m ρ c (Proc.devRef .tc main_v30) = Cert.ReferenceIdeal.Read.val_main_v48 (F := Ideal) (a2 m c) (a3 m c) (a4 m c) (a5 m c) (a9 m c) := by
  show StableHlo.after hostOps1 (W2 m ρ c) (Proc.devRef .tc main_v30) = _
  after_results_simp
  rw [at2_arg4 m ρ c, at2_arg3 m ρ c, at2_v6_0 m ρ c, at2_arg2 m ρ c]
  rfl
theorem at3_v33 (c : Dev nD) : W3 m ρ c (Proc.devRef .tc main_v33) = Cert.ReferenceIdeal.Read.val_main_v51 (F := Ideal) (a2 m c) (a3 m c) (a4 m c) (a6 m c) (a9 m c) := by
  show StableHlo.after hostOps1 (W2 m ρ c) (Proc.devRef .tc main_v33) = _
  after_results_simp
  rw [at2_arg4 m ρ c, at2_arg3 m ρ c, at2_v6_1 m ρ c, at2_arg2 m ρ c]
  rfl
theorem at3_arg0 (c : Dev nD) : W3 m ρ c (Proc.devRef .tc main_arg0) = (a0 m c) := by
  show StableHlo.after hostOps1 (W2 m ρ c) (Proc.devRef .tc main_arg0) = _
  after_results_simp <;> exact at2_arg0 m ρ c
theorem at3_arg1 (c : Dev nD) : W3 m ρ c (Proc.devRef .tc main_arg1) = (a1 m c) := by
  show StableHlo.after hostOps1 (W2 m ρ c) (Proc.devRef .tc main_arg1) = _
  after_results_simp <;> exact at2_arg1 m ρ c
theorem at3_arg2 (c : Dev nD) : W3 m ρ c (Proc.devRef .tc main_arg2) = (a2 m c) := by
  show StableHlo.after hostOps1 (W2 m ρ c) (Proc.devRef .tc main_arg2) = _
  after_results_simp <;> exact at2_arg2 m ρ c
theorem at3_arg3 (c : Dev nD) : W3 m ρ c (Proc.devRef .tc main_arg3) = (a3 m c) := by
  show StableHlo.after hostOps1 (W2 m ρ c) (Proc.devRef .tc main_arg3) = _
  after_results_simp <;> exact at2_arg3 m ρ c
theorem at3_arg4 (c : Dev nD) : W3 m ρ c (Proc.devRef .tc main_arg4) = (a4 m c) := by
  show StableHlo.after hostOps1 (W2 m ρ c) (Proc.devRef .tc main_arg4) = _
  after_results_simp <;> exact at2_arg4 m ρ c
theorem at3_arg7 (c : Dev nD) : W3 m ρ c (Proc.devRef .tc main_arg7) = (a7 m c) := by
  show StableHlo.after hostOps1 (W2 m ρ c) (Proc.devRef .tc main_arg7) = _
  after_results_simp <;> exact at2_arg7 m ρ c
theorem at3_arg8 (c : Dev nD) : W3 m ρ c (Proc.devRef .tc main_arg8) = (a8 m c) := by
  show StableHlo.after hostOps1 (W2 m ρ c) (Proc.devRef .tc main_arg8) = _
  after_results_simp <;> exact at2_arg8 m ρ c
theorem at3_v3 (c : Dev nD) : W3 m ρ c (Proc.devRef .tc main_v3) = Cert.ReferenceIdeal.Read.val_main_v62 (F := Ideal) (a10 m c) := by
  show StableHlo.after hostOps1 (W2 m ρ c) (Proc.devRef .tc main_v3) = _
  after_results_simp <;> exact at2_v3 m ρ c
theorem at3_v5 (c : Dev nD) : W3 m ρ c (Proc.devRef .tc main_v5) = Cert.ReferenceIdeal.Read.val_main_v65 (F := Ideal) (a10 m c) := by
  show StableHlo.after hostOps1 (W2 m ρ c) (Proc.devRef .tc main_v5) = _
  after_results_simp <;> exact at2_v5 m ρ c

/-! ## Boundary 4: after the second projection (interval ReLU of layer 1, then · W2ᵀ and · |W2|ᵀ) -/

theorem at4_v34_0 (c : Dev nD) : W4 m ρ c (Proc.devRef .tc main_v34_0) = Cert.ReferenceIdeal.Read.val_main_v63 (F := Ideal) (a2 m c) (a3 m c) (a4 m c) (a5 m c) (a6 m c) (a9 m c) (a10 m c) := by
  refine (W4_arr m ρ c 4).trans ((Cert.KernelIdeal.Project.layer2_centre (V3 m ρ) c).trans ?_)
  show _ = Cert.ReferenceIdeal.Read.val_main_v63 (F := Ideal) (a2 m c) (a3 m c) (a4 m c) (a5 m c) (a6 m c) (a9 m c) (a10 m c)
  rw [show V3 m ρ c main_v30 = _ from at3_v30 m ρ c, show V3 m ρ c main_v33 = _ from at3_v33 m ρ c, show V3 m ρ c main_v3 = _ from at3_v3 m ρ c]
  rfl
theorem at4_v34_1 (c : Dev nD) : W4 m ρ c (Proc.devRef .tc main_v34_1) = Cert.ReferenceIdeal.Read.val_main_v66 (F := Ideal) (a2 m c) (a3 m c) (a4 m c) (a5 m c) (a6 m c) (a9 m c) (a10 m c) := by
  refine (W4_arr m ρ c 5).trans ((Cert.KernelIdeal.Project.layer2_radius (V3 m ρ) c).trans ?_)
  show _ = Cert.ReferenceIdeal.Read.val_main_v66 (F := Ideal) (a2 m c) (a3 m c) (a4 m c) (a5 m c) (a6 m c) (a9 m c) (a10 m c)
  rw [show V3 m ρ c main_v30 = _ from at3_v30 m ρ c, show V3 m ρ c main_v33 = _ from at3_v33 m ρ c, show V3 m ρ c main_v5 = _ from at3_v5 m ρ c]
  rfl
theorem at4_arg0 (c : Dev nD) : W4 m ρ c (Proc.devRef .tc main_arg0) = (a0 m c) :=
  (W4_of_ne m ρ c main_arg0 (by decide)).trans (at3_arg0 m ρ c)
theorem at4_arg1 (c : Dev nD) : W4 m ρ c (Proc.devRef .tc main_arg1) = (a1 m c) :=
  (W4_of_ne m ρ c main_arg1 (by decide)).trans (at3_arg1 m ρ c)
theorem at4_arg2 (c : Dev nD) : W4 m ρ c (Proc.devRef .tc main_arg2) = (a2 m c) :=
  (W4_of_ne m ρ c main_arg2 (by decide)).trans (at3_arg2 m ρ c)
theorem at4_arg3 (c : Dev nD) : W4 m ρ c (Proc.devRef .tc main_arg3) = (a3 m c) :=
  (W4_of_ne m ρ c main_arg3 (by decide)).trans (at3_arg3 m ρ c)
theorem at4_arg4 (c : Dev nD) : W4 m ρ c (Proc.devRef .tc main_arg4) = (a4 m c) :=
  (W4_of_ne m ρ c main_arg4 (by decide)).trans (at3_arg4 m ρ c)
theorem at4_arg7 (c : Dev nD) : W4 m ρ c (Proc.devRef .tc main_arg7) = (a7 m c) :=
  (W4_of_ne m ρ c main_arg7 (by decide)).trans (at3_arg7 m ρ c)
theorem at4_arg8 (c : Dev nD) : W4 m ρ c (Proc.devRef .tc main_arg8) = (a8 m c) :=
  (W4_of_ne m ρ c main_arg8 (by decide)).trans (at3_arg8 m ρ c)

/-! ## Boundary 5: after layer 2's propagation along the edges -/

theorem at5_v58 (c : Dev nD) : W5 m ρ c (Proc.devRef .tc main_v58) = Cert.ReferenceIdeal.Read.val_main_v90 (F := Ideal) (a2 m c) (a3 m c) (a4 m c) (a5 m c) (a6 m c) (a9 m c) (a10 m c) := by
  show StableHlo.after hostOps2 (W4 m ρ c) (Proc.devRef .tc main_v58) = _
  after_results_simp
  rw [at4_arg4 m ρ c, at4_arg3 m ρ c, at4_v34_0 m ρ c, at4_arg2 m ρ c]
  rfl
theorem at5_v61 (c : Dev nD) : W5 m ρ c (Proc.devRef .tc main_v61) = Cert.ReferenceIdeal.Read.val_main_v93 (F := Ideal) (a2 m c) (a3 m c) (a4 m c) (a5 m c) (a6 m c) (a9 m c) (a10 m c) := by
  show StableHlo.after hostOps2 (W4 m ρ c) (Proc.devRef .tc main_v61) = _
  after_results_simp
  rw [at4_arg4 m ρ c, at4_arg3 m ρ c, at4_v34_1 m ρ c, at4_arg2 m ρ c]
  rfl
theorem at5_arg0 (c : Dev nD) : W5 m ρ c (Proc.devRef .tc main_arg0) = (a0 m c) := by
  show StableHlo.after hostOps2 (W4 m ρ c) (Proc.devRef .tc main_arg0) = _
  after_results_simp <;> exact at4_arg0 m ρ c
theorem at5_arg1 (c : Dev nD) : W5 m ρ c (Proc.devRef .tc main_arg1) = (a1 m c) := by
  show StableHlo.after hostOps2 (W4 m ρ c) (Proc.devRef .tc main_arg1) = _
  after_results_simp <;> exact at4_arg1 m ρ c
theorem at5_arg7 (c : Dev nD) : W5 m ρ c (Proc.devRef .tc main_arg7) = (a7 m c) := by
  show StableHlo.after hostOps2 (W4 m ρ c) (Proc.devRef .tc main_arg7) = _
  after_results_simp <;> exact at4_arg7 m ρ c
theorem at5_arg8 (c : Dev nD) : W5 m ρ c (Proc.devRef .tc main_arg8) = (a8 m c) := by
  show StableHlo.after hostOps2 (W4 m ρ c) (Proc.devRef .tc main_arg8) = _
  after_results_simp <;> exact at4_arg8 m ρ c

/-! ## Boundary 6: after the final interval ReLU: the entity embeddings u_c, u_r -/

theorem at6_v62_0 (c : Dev nD) : W6 m ρ c (Proc.devRef .tc main_v62_0) = Cert.ReferenceIdeal.Read.val_main_v100 (F := Ideal) (a2 m c) (a3 m c) (a4 m c) (a5 m c) (a6 m c) (a9 m c) (a10 m c) := by
  refine (W6_arr m ρ c 2).trans ((Cert.KernelIdeal.Relu.relu_centre (V5 m ρ) c).trans ?_)
  show _ = Cert.ReferenceIdeal.Read.val_main_v100 (F := Ideal) (a2 m c) (a3 m c) (a4 m c) (a5 m c) (a6 m c) (a9 m c) (a10 m c)
  rw [show V5 m ρ c main_v58 = _ from at5_v58 m ρ c, show V5 m ρ c main_v61 = _ from at5_v61 m ρ c]
  rfl
theorem at6_v62_1 (c : Dev nD) : W6 m ρ c (Proc.devRef .tc main_v62_1) = Cert.ReferenceIdeal.Read.val_main_v103 (F := Ideal) (a2 m c) (a3 m c) (a4 m c) (a5 m c) (a6 m c) (a9 m c) (a10 m c) := by
  refine (W6_arr m ρ c 3).trans ((Cert.KernelIdeal.Relu.relu_radius (V5 m ρ) c).trans ?_)
  show _ = Cert.ReferenceIdeal.Read.val_main_v103 (F := Ideal) (a2 m c) (a3 m c) (a4 m c) (a5 m c) (a6 m c) (a9 m c) (a10 m c)
  rw [show V5 m ρ c main_v58 = _ from at5_v58 m ρ c, show V5 m ρ c main_v61 = _ from at5_v61 m ρ c]
  rfl
theorem at6_arg0 (c : Dev nD) : W6 m ρ c (Proc.devRef .tc main_arg0) = (a0 m c) :=
  (W6_of_ne m ρ c main_arg0 (by decide)).trans (at5_arg0 m ρ c)
theorem at6_arg1 (c : Dev nD) : W6 m ρ c (Proc.devRef .tc main_arg1) = (a1 m c) :=
  (W6_of_ne m ρ c main_arg1 (by decide)).trans (at5_arg1 m ρ c)
theorem at6_arg7 (c : Dev nD) : W6 m ρ c (Proc.devRef .tc main_arg7) = (a7 m c) :=
  (W6_of_ne m ρ c main_arg7 (by decide)).trans (at5_arg7 m ρ c)
theorem at6_arg8 (c : Dev nD) : W6 m ρ c (Proc.devRef .tc main_arg8) = (a8 m c) :=
  (W6_of_ne m ρ c main_arg8 (by decide)).trans (at5_arg8 m ρ c)

/-! ## Boundary 9: the three stretches between the interval ReLU and the positive scores, taken together: the relation rows of the positive triplets (centres; radii through softplus) and the gathered head and tail embeddings -/

theorem at9_v71 (c : Dev nD) : W9 m ρ c (Proc.devRef .tc main_v71) = Cert.ReferenceIdeal.Read.val_main_v8 (F := Ideal) (a0 m c) (a7 m c) := by
  show StableHlo.after hostOps3_2 (W8 m ρ c) (Proc.devRef .tc main_v71) = _
  after_results_simp
  rw [at6_arg7 m ρ c, at6_arg0 m ρ c]
  rfl
theorem at9_v81 (c : Dev nD) : W9 m ρ c (Proc.devRef .tc main_v81) = Cert.ReferenceIdeal.Read.val_main_v18 (F := Ideal) (a0 m c) (a8 m c) := by
  show StableHlo.after hostOps3_2 (W8 m ρ c) (Proc.devRef .tc main_v81) = _
  after_results_simp
  rw [at6_arg8 m ρ c, at6_arg0 m ρ c]
  rfl
theorem at9_v90 (c : Dev nD) : W9 m ρ c (Proc.devRef .tc main_v90) = Cert.ReferenceIdeal.Read.val_main_v112 (F := Ideal) (a0 m c) (a2 m c) (a3 m c) (a4 m c) (a5 m c) (a6 m c) (a9 m c) (a10 m c) := by
  show StableHlo.after hostOps3_2 (W8 m ρ c) (Proc.devRef .tc main_v90) = _
  after_results_simp
  rw [at6_v62_0 m ρ c, at6_arg0 m ρ c]
  rfl
theorem at9_v99 (c : Dev nD) : W9 m ρ c (Proc.devRef .tc main_v99) = Cert.ReferenceIdeal.Read.val_main_v121 (F := Ideal) (a0 m c) (a2 m c) (a3 m c) (a4 m c) (a5 m c) (a6 m c) (a9 m c) (a10 m c) := by
  show StableHlo.after hostOps3_2 (W8 m ρ c) (Proc.devRef .tc main_v99) = _
  after_results_simp
  rw [at6_v62_1 m ρ c, at6_arg0 m ρ c]
  rfl
theorem at9_v108 (c : Dev nD) : W9 m ρ c (Proc.devRef .tc main_v108) = Cert.ReferenceIdeal.Read.val_main_v130 (F := Ideal) (a0 m c) (a2 m c) (a3 m c) (a4 m c) (a5 m c) (a6 m c) (a9 m c) (a10 m c) := by
  show StableHlo.after hostOps3_2 (W8 m ρ c) (Proc.devRef .tc main_v108) = _
  after_results_simp
  rw [at6_v62_0 m ρ c, at6_arg0 m ρ c]
  rfl
theorem at9_v117 (c : Dev nD) : W9 m ρ c (Proc.devRef .tc main_v117) = Cert.ReferenceIdeal.Read.val_main_v139 (F := Ideal) (a0 m c) (a2 m c) (a3 m c) (a4 m c) (a5 m c) (a6 m c) (a9 m c) (a10 m c) := by
  show StableHlo.after hostOps3_2 (W8 m ρ c) (Proc.devRef .tc main_v117) = _
  after_results_simp
  rw [at6_v62_1 m ρ c, at6_arg0 m ρ c]
  rfl
theorem at9_arg1 (c : Dev nD) : W9 m ρ c (Proc.devRef .tc main_arg1) = (a1 m c) := by
  show StableHlo.after hostOps3_2 (W8 m ρ c) (Proc.devRef .tc main_arg1) = _
  after_results_simp <;> exact at6_arg1 m ρ c
theorem at9_v62_0 (c : Dev nD) : W9 m ρ c (Proc.devRef .tc main_v62_0) = Cert.ReferenceIdeal.Read.val_main_v100 (F := Ideal) (a2 m c) (a3 m c) (a4 m c) (a5 m c) (a6 m c) (a9 m c) (a10 m c) := by
  show StableHlo.after hostOps3_2 (W8 m ρ c) (Proc.devRef .tc main_v62_0) = _
  after_results_simp <;> exact at6_v62_0 m ρ c
theorem at9_v62_1 (c : Dev nD) : W9 m ρ c (Proc.devRef .tc main_v62_1) = Cert.ReferenceIdeal.Read.val_main_v103 (F := Ideal) (a2 m c) (a3 m c) (a4 m c) (a5 m c) (a6 m c) (a9 m c) (a10 m c) := by
  show StableHlo.after hostOps3_2 (W8 m ρ c) (Proc.devRef .tc main_v62_1) = _
  after_results_simp <;> exact at6_v62_1 m ρ c

/-! ## Boundary 10: after the positive scores -/

theorem at10_v118 (c : Dev nD) : W10 m ρ c (Proc.devRef .tc main_v118) = Cert.ReferenceIdeal.Read.val_main_v148 (F := Ideal) (a0 m c) (a2 m c) (a3 m c) (a4 m c) (a5 m c) (a6 m c) (a7 m c) (a8 m c) (a9 m c) (a10 m c) := by
  refine (W10_arr m ρ c 6).trans ((Cert.KernelIdeal.Score.pos_scores (V9 m ρ) c).trans ?_)
  show _ = Cert.ReferenceIdeal.Read.val_main_v148 (F := Ideal) (a0 m c) (a2 m c) (a3 m c) (a4 m c) (a5 m c) (a6 m c) (a7 m c) (a8 m c) (a9 m c) (a10 m c)
  rw [show V9 m ρ c main_v90 = _ from at9_v90 m ρ c, show V9 m ρ c main_v99 = _ from at9_v99 m ρ c, show V9 m ρ c main_v108 = _ from at9_v108 m ρ c, show V9 m ρ c main_v117 = _ from at9_v117 m ρ c, show V9 m ρ c main_v71 = _ from at9_v71 m ρ c, show V9 m ρ c main_v81 = _ from at9_v81 m ρ c]
  rfl
theorem at10_v71 (c : Dev nD) : W10 m ρ c (Proc.devRef .tc main_v71) = Cert.ReferenceIdeal.Read.val_main_v8 (F := Ideal) (a0 m c) (a7 m c) :=
  (W10_arr m ρ c 4).trans (((dat3 (V9 m ρ) c).arrAt_in 4 rfl _).trans ((A_eq3 (V9 m ρ) c 4).trans (at9_v71 m ρ c)))
theorem at10_v81 (c : Dev nD) : W10 m ρ c (Proc.devRef .tc main_v81) = Cert.ReferenceIdeal.Read.val_main_v18 (F := Ideal) (a0 m c) (a8 m c) :=
  (W10_arr m ρ c 5).trans (((dat3 (V9 m ρ) c).arrAt_in 5 rfl _).trans ((A_eq3 (V9 m ρ) c 5).trans (at9_v81 m ρ c)))
theorem at10_arg1 (c : Dev nD) : W10 m ρ c (Proc.devRef .tc main_arg1) = (a1 m c) :=
  (W10_of_ne m ρ c main_arg1 (by decide)).trans (at9_arg1 m ρ c)
theorem at10_v62_0 (c : Dev nD) : W10 m ρ c (Proc.devRef .tc main_v62_0) = Cert.ReferenceIdeal.Read.val_main_v100 (F := Ideal) (a2 m c) (a3 m c) (a4 m c) (a5 m c) (a6 m c) (a9 m c) (a10 m c) :=
  (W10_of_ne m ρ c main_v62_0 (by decide)).trans (at9_v62_0 m ρ c)
theorem at10_v62_1 (c : Dev nD) : W10 m ρ c (Proc.devRef .tc main_v62_1) = Cert.ReferenceIdeal.Read.val_main_v103 (F := Ideal) (a2 m c) (a3 m c) (a4 m c) (a5 m c) (a6 m c) (a9 m c) (a10 m c) :=
  (W10_of_ne m ρ c main_v62_1 (by decide)).trans (at9_v62_1 m ρ c)

/-! ## Boundary 11: the gathered embeddings of the corrupted triplets -/

theorem at11_v127 (c : Dev nD) : W11 m ρ c (Proc.devRef .tc main_v127) = Cert.ReferenceIdeal.Read.val_main_v157 (F := Ideal) (a1 m c) (a2 m c) (a3 m c) (a4 m c) (a5 m c) (a6 m c) (a9 m c) (a10 m c) := by
  show StableHlo.after hostOps4 (W10 m ρ c) (Proc.devRef .tc main_v127) = _
  after_results_simp
  rw [at10_arg1 m ρ c, at10_v62_0 m ρ c]
  rfl
theorem at11_v136 (c : Dev nD) : W11 m ρ c (Proc.devRef .tc main_v136) = Cert.ReferenceIdeal.Read.val_main_v166 (F := Ideal) (a1 m c) (a2 m c) (a3 m c) (a4 m c) (a5 m c) (a6 m c) (a9 m c) (a10 m c) := by
  show StableHlo.after hostOps4 (W10 m ρ c) (Proc.devRef .tc main_v136) = _
  after_results_simp
  rw [at10_arg1 m ρ c, at10_v62_1 m ρ c]
  rfl
theorem at11_v145 (c : Dev nD) : W11 m ρ c (Proc.devRef .tc main_v145) = Cert.ReferenceIdeal.Read.val_main_v175 (F := Ideal) (a1 m c) (a2 m c) (a3 m c) (a4 m c) (a5 m c) (a6 m c) (a9 m c) (a10 m c) := by
  show StableHlo.after hostOps4 (W10 m ρ c) (Proc.devRef .tc main_v145) = _
  after_results_simp
  rw [at10_arg1 m ρ c, at10_v62_0 m ρ c]
  rfl
theorem at11_v154 (c : Dev nD) : W11 m ρ c (Proc.devRef .tc main_v154) = Cert.ReferenceIdeal.Read.val_main_v184 (F := Ideal) (a1 m c) (a2 m c) (a3 m c) (a4 m c) (a5 m c) (a6 m c) (a9 m c) (a10 m c) := by
  show StableHlo.after hostOps4 (W10 m ρ c) (Proc.devRef .tc main_v154) = _
  after_results_simp
  rw [at10_arg1 m ρ c, at10_v62_1 m ρ c]
  rfl
theorem at11_v71 (c : Dev nD) : W11 m ρ c (Proc.devRef .tc main_v71) = Cert.ReferenceIdeal.Read.val_main_v8 (F := Ideal) (a0 m c) (a7 m c) := by
  show StableHlo.after hostOps4 (W10 m ρ c) (Proc.devRef .tc main_v71) = _
  after_results_simp <;> exact at10_v71 m ρ c
theorem at11_v81 (c : Dev nD) : W11 m ρ c (Proc.devRef .tc main_v81) = Cert.ReferenceIdeal.Read.val_main_v18 (F := Ideal) (a0 m c) (a8 m c) := by
  show StableHlo.after hostOps4 (W10 m ρ c) (Proc.devRef .tc main_v81) = _
  after_results_simp <;> exact at10_v81 m ρ c
theorem at11_v118 (c : Dev nD) : W11 m ρ c (Proc.devRef .tc main_v118) = Cert.ReferenceIdeal.Read.val_main_v148 (F := Ideal) (a0 m c) (a2 m c) (a3 m c) (a4 m c) (a5 m c) (a6 m c) (a7 m c) (a8 m c) (a9 m c) (a10 m c) := by
  show StableHlo.after hostOps4 (W10 m ρ c) (Proc.devRef .tc main_v118) = _
  after_results_simp <;> exact at10_v118 m ρ c

/-! ## Boundary 12: after the negative scores: the two results -/

theorem at12_v155 (c : Dev nD) : W12 m ρ c (Proc.devRef .tc main_v155) = Cert.ReferenceIdeal.Read.val_main_v197 (F := Ideal) (a0 m c) (a1 m c) (a2 m c) (a3 m c) (a4 m c) (a5 m c) (a6 m c) (a7 m c) (a8 m c) (a9 m c) (a10 m c) := by
  refine (W12_arr m ρ c 6).trans ((Cert.KernelIdeal.Score.neg_scores (V11 m ρ) c).trans ?_)
  show _ = Cert.ReferenceIdeal.Read.val_main_v197 (F := Ideal) (a0 m c) (a1 m c) (a2 m c) (a3 m c) (a4 m c) (a5 m c) (a6 m c) (a7 m c) (a8 m c) (a9 m c) (a10 m c)
  rw [show V11 m ρ c main_v127 = _ from at11_v127 m ρ c, show V11 m ρ c main_v136 = _ from at11_v136 m ρ c, show V11 m ρ c main_v145 = _ from at11_v145 m ρ c, show V11 m ρ c main_v154 = _ from at11_v154 m ρ c, show V11 m ρ c main_v71 = _ from at11_v71 m ρ c, show V11 m ρ c main_v81 = _ from at11_v81 m ρ c]
  rfl
theorem at12_v118 (c : Dev nD) : W12 m ρ c (Proc.devRef .tc main_v118) = Cert.ReferenceIdeal.Read.val_main_v148 (F := Ideal) (a0 m c) (a2 m c) (a3 m c) (a4 m c) (a5 m c) (a6 m c) (a7 m c) (a8 m c) (a9 m c) (a10 m c) :=
  (W12_of_ne m ρ c main_v118 (by decide)).trans (at11_v118 m ρ c)
end Cert.KernelIdeal.Boundaries

end
-- ==== Proof.lean ====
/-
  The two-layer interval graph convolution and its triplet scores: the kernel program against its jnp reference, on the
  extended reals.

  Both programs compute, from entity centres c and radius parameters ρ, relation rows, two 128 × 128 weight matrices and an
  edge list with weights: r = softplus(ρ); twice, the projections Zc = c · Wᵀ and Zr = r · |W|ᵀ, their propagation along the
  edges (gather the column's row, scale by the edge's weight, respectively its absolute value, and sum into the row's entry)
  and the interval ReLU ([C - R, C + R] clipped at zero, as centre and radius); then, for every positive triplet and each
  of its 64 corrupted triplets, Σ_d |h_r + rel_r + t_r| - Σ_d |h_c + rel_c - t_c| over the 128 coordinates.

  The reference runs all of this as host operations. The kernel program runs the edge propagation and the gathers as the
  SAME host operations, and the dense stages in five pallas_call regions: the two projections (the second with the first
  layer's interval ReLU fused in front, the first with the softplus), the final interval ReLU, and the two score
  reductions. On the extended reals the regions' bf16 casts are the identity, a block's product accumulated into zero and the
  host's contraction are the same finite sum over k, a lane sum and the host's reduction are the same finite sum over d, and
  the blocks of every output tile its array: so each region leaves in its output array exactly the reference's dense
  stage of its input arrays (modules RegionProject, RegionRelu, RegionScore, against the stages of module Stages). Walking
  the twelve boundaries of @main (module Boundaries) then shows each buffer of the kernel program to hold the reference's
  stage of the same place in the data flow, and at the end the two result buffers to hold the reference's two results.
  No law of arithmetic beyond this is used, and none that needs finite inputs: the precondition is never opened.
  The idealization rewrote no operation, so `preserves` has nothing to state.
-/
import proofs.«129168_j42064909697221_1_alg».proof.Defs
import proofs.«129168_j42064909697221_1_alg».proof.Proof.Gen.Kernel
import proofs.«129168_j42064909697221_1_alg».proof.Proof.Gen.Kernel.Frame
import proofs.«129168_j42064909697221_1_alg».proof.Proof.Gen.KernelIdeal
import proofs.«129168_j42064909697221_1_alg».proof.Proof.Gen.KernelIdeal.Frame
import proofs.«129168_j42064909697221_1_alg».proof.Proof.Gen.ReferenceIdeal
import proofs.«129168_j42064909697221_1_alg».proof.Proof.Gen.Pre_finite_inputs
import proofs.«129168_j42064909697221_1_alg».proof.Proof.Gen.ReferenceIdeal.Run
import proofs.«129168_j42064909697221_1_alg».proof.Proof.Gen.ReferenceIdeal.Read
import proofs.«129168_j42064909697221_1_alg».proof.Proof.KernelRun
import proofs.«129168_j42064909697221_1_alg».proof.Proof.Boundaries
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference's run, its two results forgotten. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the reference's two stage terms of those arguments in
    their result buffers: the kernel program by the walk through its boundaries, the reference by its own run. -/
theorem algebraic : Cert.algebraic_KernelIdeal_ReferenceIdeal := by
  intro m ρ m' ρ' _ hagree
  refine ⟨fun c => Cert.ReferenceIdeal.Read.val_main_v148 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v197 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Boundaries.at12_v118 m ρ c),
        (h c).2.1.trans (Cert.KernelIdeal.Boundaries.at12_v155 m ρ c), (h c).2.2⟩)
      (Cert.KernelIdeal.Results.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7, h8, h9, h10⟩ := hagree c
      rw [Cert.ReferenceIdeal.Read.val_main_v148_eq, h0, h2, h3, h4, h5, h6, h7, h8, h9, h10]
    · obtain ⟨h0, h1, h2, h3, h4, h5, h6, h7, h8, h9, h10⟩ := hagree c
      rw [Cert.ReferenceIdeal.Read.val_main_v197_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
